-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25_1)) (v1 : (c : Dev Cert.KernelIdeal.nD) → Buf (Elt Ideal) ((c.tc : Thread Cert.KernelIdeal.nD Cert.KernelIdeal.τ).loc Cert.KernelIdeal.main_v25_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25_1) = v0 c
          ∧ r.2.mem ((c.tc : Thread Cert.KernelIdeal.nD Cert.KernelIdeal.τ).loc Cert.KernelIdeal.main_v25_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v55) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S100000x128 .f32) (main_arg5 : FVec F S128x128 .f32) (main_arg6 : FVec F S100000x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S100000x128 .f32 := Host.absf main_arg4
  let main_cst_6 : FVec F S_ .f32 := constant S_ .f32 0x7F800000#32
  let main_v20 : FVec F S100000x128 .f32 := broadcastInDim S100000x128 ![] bcast_S_S100000x128 main_cst_6
  let main_v21 : IVec S100000x128 1 := cmpf .olt main_v19 main_v20
  let main_c_7 : IVec S_ 1 := constantI S_ 1 1#1
  let main_v22 : IVec S_ 1 := (fun x v => Host.reduce IntOp.andi x v reducesTo_S100000x128_S_d0_1 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S100000x128 .f32 := Host.absf main_arg6
  let main_cst_10 : FVec F S_ .f32 := constant S_ .f32 0x7F800000#32
  let main_v30 : FVec F S100000x128 .f32 := broadcastInDim S100000x128 ![] bcast_S_S100000x128 main_cst_10
  let main_v31 : IVec S100000x128 1 := cmpf .olt main_v29 main_v30
  let main_c_11 : IVec S_ 1 := constantI S_ 1 1#1
  let main_v32 : IVec S_ 1 := (fun x v => Host.reduce IntOp.andi x v reducesTo_S100000x128_S_d0_1 h_S_) main_v31 main_c_11
  let main_v33 : IVec S_ 1 := andi main_v28 main_v32
  main_v33

def fn {F : FTy → Type} [FloatOps F] (main_arg0 : FVec F S100000x128 .f32) (main_arg1 : FVec F S100000x128 .f32) (main_arg2 : FVec F S256x128 .f32) (main_arg3 : FVec F S128 .f32) (main_arg4 : FVec F S100000x128 .f32) (main_arg5 : FVec F S128x128 .f32) (main_arg6 : FVec F S100000x128 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_v13 main_v16
-- ==== Kernel.lean ====
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S4000x128 : Shape := ⟨2, ![4000, 128]⟩
abbrev S4000x1 : Shape := ⟨2, ![4000, 1]⟩
abbrev S1600000x128 : Shape := ⟨2, ![1600000, 128]⟩
abbrev S1x128 : Shape := ⟨2, ![1, 128]⟩

abbrev nBuf : Space → Nat
  | .hbm => 41
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S256x128, .f32⟩
  | .hbm, ⟨3, _⟩ => ⟨S128, .f32⟩
  | .hbm, ⟨4, _⟩ => ⟨S100000x128, .f32⟩
  | .hbm, ⟨5, _⟩ => ⟨S128x128, .f32⟩
  | .hbm, ⟨6, _⟩ => ⟨S100000x128, .f32⟩
  | .hbm, ⟨7, _⟩ => ⟨S2x1600000, .i32⟩
  | .hbm, ⟨8, _⟩ => ⟨S128x128, .f32⟩
  | .hbm, ⟨9, _⟩ => ⟨S128x128, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x128, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .f32⟩
  | .hbm, ⟨35, _⟩ => ⟨S_, .f32⟩
  | .hbm, ⟨36, _⟩ => ⟨S100000x128, .f32⟩
  | .hbm, ⟨37, _⟩ => ⟨S1600000x1, .i32⟩
  | .hbm, ⟨38, _⟩ => ⟨S100000x128, .f32⟩
  | .hbm, ⟨39, _⟩ => ⟨S100000x128, .f32⟩
  | .hbm, ⟨40, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S4000x1, .f32⟩
  | .local _ .vmem, ⟨5, _⟩ => ⟨S4000x1, .f32⟩
  | .local _ .vmem, ⟨6, _⟩ => ⟨S128x128, .f32⟩
  | .local _ .vmem, ⟨7, _⟩ => ⟨S128x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S4000x128, .f32⟩
  | .local _ .vmem, ⟨13, _⟩ => ⟨S4000x128, .f32⟩
  | .local _ .vmem, ⟨14, _⟩ => ⟨S4000x128, .f32⟩
  | .local _ .vmem, ⟨15, _⟩ => ⟨S4000x128, .f32⟩
  | .local _ .vmem, ⟨16, _⟩ => ⟨S4000x1, .f32⟩
  | .local _ .vmem, ⟨17, _⟩ => ⟨S4000x1, .f32⟩
  | .local _ .vmem, ⟨18, _⟩ => ⟨S4000x128, .f32⟩
  | .local _ .vmem, ⟨19, _⟩ => ⟨S4000x128, .f32⟩
  | .local _ .vmem, ⟨20, _⟩ => ⟨S128x128, .f32⟩
  | .local _ .vmem, ⟨21, _⟩ => ⟨S128, .f32⟩
  | .local _ .vmem, ⟨22, _⟩ => ⟨S4000x128, .f32⟩
  | .local _ .vmem, ⟨23, _⟩ => ⟨S4000x128, .f32⟩
  | .local _ .vmem, ⟨24, _⟩ => ⟨S4000x128, .f32⟩
  | .local _ .vmem, ⟨25, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25_0 : Ref sig .tc := ⟨.hbm, 39, rfl⟩
abbrev main_v25_1 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S256x128_S128x128_0_0 : S256x128.Slices ![0, 0] S128x128
  slices_S256x128_S128x128_128_0 : S256x128.Slices ![128, 0] S128x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  inb_S4000x128_S4000x128_0_0 : ∀ a, (![0, 0] : Fin 2 → Nat) a + S4000x128.size a ≤ S4000x128.size a
  h_S4000x128 : 0 < S4000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  bcast_S_S100000x128 : S_.BroadcastsInDim S100000x128 (![] : Fin 0 → Fin S100000x128.rank)
  shapeCasts_S4000x128_S4000x128 : S4000x128.ShapeCasts S4000x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  scatter_S100000_S1600000x1_S1600000_n_0_0_1_wf : ScatterDims.WF S100000 S1600000x1 S1600000 [] [0] [0] 1
  dot_S4000x128_S128x128_S4000x128_1_0_0_1_n_n_wf : DotDims.WF S4000x128 S128x128 S4000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .f32 = 32 ∨ (Rect.block (s := S100000x128) S4000x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x1.size a ≤ S100000x1.size a
  hwx1_3 : ∀ i : grid1.Coords, EltTy.bits .f32 = 32 ∨ (Rect.block (s := S100000x1) S4000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x128.size a ≤ S100000x128.size a
  hwx1_8 : ∀ i : grid1.Coords, EltTy.bits .f32 = 32 ∨ (Rect.block (s := S100000x128) S4000x128.size (cc1_transform_8 i) (hinb1_8 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg4) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S4000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S4000x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg3) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25_0) S4000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v25_1) S4000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x128 : Shape := ⟨2, ![100000, 128]⟩
abbrev S256x128 : Shape := ⟨2, ![256, 128]⟩
abbrev S128 : Shape := ⟨1, ![128]⟩
abbrev S128x128 : Shape := ⟨2, ![128, 128]⟩
abbrev S2x1600000 : Shape := ⟨2, ![2, 1600000]⟩
abbrev S100000x256 : Shape := ⟨2, ![100000, 256]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S256x128, .f32⟩
  | .hbm, ⟨3, _⟩ => ⟨S128, .f32⟩
  | .hbm, ⟨4, _⟩ => ⟨S100000x128, .f32⟩
  | .hbm, ⟨5, _⟩ => ⟨S128x128, .f32⟩
  | .hbm, ⟨6, _⟩ => ⟨S100000x128, .f32⟩
  | .hbm, ⟨7, _⟩ => ⟨S2x1600000, .i32⟩
  | .hbm, ⟨8, _⟩ => ⟨S100000x256, .f32⟩
  | .hbm, ⟨9, _⟩ => ⟨S100000x128, .f32⟩
  | .hbm, ⟨10, _⟩ => ⟨S1x1600000, .i32⟩
  | .hbm, ⟨11, _⟩ => ⟨S1600000, .i32⟩
  | .hbm, ⟨12, _⟩ => ⟨S100000, .i32⟩
  | .hbm, ⟨13, _⟩ => ⟨S1700000, .i32⟩
  | .hbm, ⟨14, _⟩ => ⟨S1x1600000, .i32⟩
  | .hbm, ⟨15, _⟩ => ⟨S1600000, .i32⟩
  | .hbm, ⟨16, _⟩ => ⟨S100000, .i32⟩
  | .hbm, ⟨17, _⟩ => ⟨S1700000, .i32⟩
  | .hbm, ⟨18, _⟩ => ⟨S_, .f32⟩
  | .hbm, ⟨19, _⟩ => ⟨S1700000, .f32⟩
  | .hbm, ⟨20, _⟩ => ⟨S_, .f32⟩
  | .hbm, ⟨21, _⟩ => ⟨S100000, .f32⟩
  | .hbm, ⟨22, _⟩ => ⟨S1700000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .i1⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S_, .i32⟩
  | .hbm, ⟨52, _⟩ => ⟨S1700000, .i32⟩
  | .hbm, ⟨53, _⟩ => ⟨S1700000, .i1⟩
  | .hbm, ⟨54, _⟩ => ⟨S_, .i32⟩
  | .hbm, ⟨55, _⟩ => ⟨S1700000, .i32⟩
  | .hbm, ⟨56, _⟩ => ⟨S1700000, .i32⟩
  | .hbm, ⟨57, _⟩ => ⟨S1700000, .i32⟩
  | .hbm, ⟨58, _⟩ => ⟨S1700000x1, .i32⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S100000x128, .f32⟩
  | .hbm, ⟨73, _⟩ => ⟨S_, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_4 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩

abbrev nD : Nat := 1
abbrev τ : Topo := Topo.v7x

variable {F : FTy → Type} [FloatOps F]

class Facts₀ : Prop where
  concatenates_S100000x128_S100000x128_S100000x256_d1 : Shape.Concatenates [S100000x128, S100000x128] S100000x256 1
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
/-
  The run of the idealized kernel program with its two results kept.

  The program is four stretches: host operations, the first grid of 25 row blocks (the linear layer scaled by the nodes'
  factors), host operations (the gather along the edges and the scatter-add onto their destinations), the second grid
  (the logistic layer and the output product). Every weakly fair execution ends, faulting nowhere, with every buffer that
  outlives a grid at the contents the four stretches leave in turn; here that final valuation is read at the two result
  buffers and at the eight arguments.
-/
import proofs.«131673_j33354716021156_2_alg».proof.Proof.Gen.KernelIdeal.Frame

set_option maxRecDepth 16384

noncomputable section

namespace Cert.KernelIdeal.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the output and the new hidden state at the last stretch's contents and
    the arguments as launched. -/
theorem run_results : θ_run defs (onTc (τ := τ) (main (F := F))) ⟨m, fun _ => 0, ρ⟩ (fun r => ∀ c : Dev nD,
      r.2.mem ((c.tc : Thread nD τ).loc main_v25_1) = W4 m ρ c (Proc.devRef .tc main_v25_1)
      ∧ r.2.mem ((c.tc : Thread nD τ).loc main_v25_0) = W4 m ρ c (Proc.devRef .tc main_v25_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v25_1 (by decide)),
       h c _ (mem_uc main_v25_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.KVal

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.LibColBroadcast.lean ====
/-
  One column broadcast over many: the companion of the library's row form `broadcastTo_1b_ab_apply`.
-/
import Idealize.ShloMosaic.Lib.Pipeline.Value
import Idealize.ShloMosaic.Lib.ValueIdx

namespace Cert.LibColBroadcast

open Idealize.ShloMosaic Idealize.ShloMosaic.ValueIdx

variable {α : Type}

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColBroadcast
-- ==== Proof.KernelRegion0.lean ====
/-
  The first grid: the linear layer, scaled.

  The grid has 25 points; point t owns rows 4000 t … 4000 t + 3999 of every row-blocked array and the whole of the two
  128 × 128 weight halves. On its block the body forms  x W₀ + h W₁  (two products into zero accumulators; rounding to
  bf16 on the way in is the identity on extended reals) and multiplies row p by the one entry of the factor column in
  that row. Read back through the blocks, which tile the result array, the array ends holding, at (n, q),

      (sum_k a0(n,k) w0(k,q) + sum_k a1(n,k) w1(k,q)) * d(n,0)

  of the arrays the grid was entered with.
-/
import proofs.«131673_j33354716021156_2_alg».proof.Proof.Gen.KernelIdeal.Frame
import Idealize.ShloMosaic.Lib.Pipeline.Value
import Idealize.ShloMosaic.Lib.ValueIdx
import Idealize.ShloMosaic.PureOps.Ideal.Laws
import proofs.«131673_j33354716021156_2_alg».proof.Proof.LibMatmulAt
import proofs.«131673_j33354716021156_2_alg».proof.Proof.LibColBroadcast

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The product's index facts -/

abbrev dotK := dot_S4000x128_S128x128_S4000x128_1_0_0_1_n_n

theorem dotK_l0 (i : S4000x128.Idx) (q : dotK.contr.Idx) : (dotK.lhsIdx i q (0 : Fin 2)).val = (i (0 : Fin 2)).val := by
  unfold DotDims.lhsIdx
  rw [dif_neg (show ¬(0 : Fin S4000x128.rank) ∈ dotK.lhsBatch by decide),
    dif_pos (show (0 : Fin S4000x128.rank) ∈ dotK.lhsNonContracting by decide)]
  rfl
theorem dotK_l1 (i : S4000x128.Idx) (q : dotK.contr.Idx) : (dotK.lhsIdx i q (1 : Fin 2)).val = (q ⟨0, by decide⟩).val :=
  dotK.lhsIdx_val_of_single rfl i q
theorem dotK_r0 (i : S4000x128.Idx) (q : dotK.contr.Idx) : (dotK.rhsIdx i q (0 : Fin 2)).val = (q ⟨0, by decide⟩).val :=
  dotK.rhsIdx_val_of_single rfl i q
theorem dotK_r1 (i : S4000x128.Idx) (q : dotK.contr.Idx) : (dotK.rhsIdx i q (1 : Fin 2)).val = (i (1 : Fin 2)).val := by
  unfold DotDims.rhsIdx
  rw [dif_neg (show ¬(1 : Fin S128x128.rank) ∈ dotK.rhsBatch by decide),
    dif_pos (show (1 : Fin S128x128.rank) ∈ dotK.rhsNonContracting by decide)]
  rfl

/-- A block's product into the zero accumulator, at an entry: the sum over the contracted axis. -/
theorem block_product_at {φ₁ φ₂ : FTy} (l : FVec Ideal S4000x128 φ₁) (r : FVec Ideal S128x128 φ₂) (p : Fin 4000) (q : Fin 128) :
    matmul dotK none l r (constant S4000x128 .f32 0x00000000#32) (ix2 p q) = ∑ k : Fin 128, l (ix2 p k) * r (ix2 k q) :=
  MatmulAt.matmul_zero_ix2 dotK rfl rfl dotK_l0 dotK_l1 dotK_r0 dotK_r1 none l r p q

/-! ## The body's payload at an entry -/

/-- Entry (p, q) of what the first body stores: the two products' sum times the factor of row p. -/
theorem linear_block_at (x0 x1 : Vec Ideal S4000x128 .f32) (w0 w1 : Vec Ideal S128x128 .f32) (d : Vec Ideal S4000x1 .f32)
    (p : Fin 4000) (q : Fin 128) :
    k0_pay1 x0 x1 w0 w1 d (ix2 p q)
      = (∑ k : Fin 128, x0 (ix2 p k) * w0 (ix2 k q) + ∑ k : Fin 128, x1 (ix2 p k) * w1 (ix2 k q)) * d (ix2 p (0 : Fin 1)) := by
  unfold k0_pay1
  refine (mulf_apply _ _ (ix2 p q)).trans ?_
  refine congrArg₂ (· * ·) ((addf_apply _ _ (ix2 p q)).trans (congrArg₂ (· + ·) ?_ ?_)) ?_
  · refine (block_product_at _ _ p q).trans (Finset.sum_congr rfl fun k _ => ?_)
    show x0 (ix2 p k) * shapeCast S128x128 w0 shapeCasts_S128x128_S128x128 (ix2 k q) = _
    rw [shapeCast_self]
  · refine (block_product_at _ _ p q).trans (Finset.sum_congr rfl fun k _ => ?_)
    show x1 (ix2 p k) * shapeCast S128x128 w1 shapeCasts_S128x128_S128x128 (ix2 k q) = _
    rw [shapeCast_self]
  · refine (Cert.LibColBroadcast.broadcastTo_a1_ab_apply _ _ p q).trans ?_
    rw [shapeCast_self]

/-! ## The grid's index maps -/

theorem zeros2 : (![0, 0] : Fin 2 → Nat) = fun _ => 0 := funext fun a => by fin_cases a <;> rfl

/-- Point t's block index in each window: the row-blocked windows are at (t, 0), the two weight halves at (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- A point is one of 25. -/
theorem point_lt0 (t : Fin cfg0.N) : t.val < 25 := lt_of_lt_of_eq t.isLt N_0

/-- Row p of point t's block is row 4000 t + p of the array. -/
def rowAt (t : Nat) (ht : t < 25) (p : Fin 4000) : Fin 100000 := ⟨t * 4000 + p.val, by have := p.isLt; omega⟩

variable (V : (c : Dev nD) → (b : Ref sig .tc) → Buf (Elt Ideal) ((c : Thread nD τ).loc b))

/-! ## The windows' blocks at an entry -/

theorem blk0_0 (c : Dev nD) (t : Fin cfg0.N) (p : Fin 4000) (k : Fin 128) :
    iblk0 V c 0 t (ix2 p k) = V c main_arg0 (ix2 (rowAt t.val (point_lt0 t) p) k) := by
  show V c main_arg0 (((cfg0.win 0).blk t).view.emb (ix2 p k)) = _
  refine congrArg _ (funext fun a => Fin.ext ?_)
  obtain ⟨e00, e01, -⟩ := idx_facts0 t
  match a with
  | ⟨0, _⟩ => show win0_0.index t (0 : Fin 2) * 4000 + 1 * p.val = t.val * 4000 + p.val; rw [e00]; omega
  | ⟨1, _⟩ => show win0_0.index t (1 : Fin 2) * 128 + 1 * k.val = k.val; rw [e01]; omega

theorem blk0_1 (c : Dev nD) (t : Fin cfg0.N) (p : Fin 4000) (k : Fin 128) :
    iblk0 V c 1 t (ix2 p k) = V c main_arg1 (ix2 (rowAt t.val (point_lt0 t) p) k) := by
  show V c main_arg1 (((cfg0.win 1).blk t).view.emb (ix2 p k)) = _
  refine congrArg _ (funext fun a => Fin.ext ?_)
  obtain ⟨-, -, e10, e11, -⟩ := idx_facts0 t
  match a with
  | ⟨0, _⟩ => show win0_1.index t (0 : Fin 2) * 4000 + 1 * p.val = t.val * 4000 + p.val; rw [e10]; omega
  | ⟨1, _⟩ => show win0_1.index t (1 : Fin 2) * 128 + 1 * k.val = k.val; rw [e11]; omega

theorem blk0_2 (c : Dev nD) (t : Fin cfg0.N) (p : Fin 4000) :
    iblk0 V c 2 t (ix2 p (0 : Fin 1)) = V c main_v13 (ix2 (rowAt t.val (point_lt0 t) p) (0 : Fin 1)) := by
  show V c main_v13 (((cfg0.win 2).blk t).view.emb (ix2 p (0 : Fin 1))) = _
  refine congrArg _ (funext fun a => Fin.ext ?_)
  obtain ⟨-, -, -, -, e20, e21, -⟩ := idx_facts0 t
  match a with
  | ⟨0, _⟩ => show win0_2.index t (0 : Fin 2) * 4000 + 1 * p.val = t.val * 4000 + p.val; rw [e20]; omega
  | ⟨1, _⟩ => show win0_2.index t (1 : Fin 2) * 1 + 1 * 0 = 0; rw [e21]

theorem blk0_3 (c : Dev nD) (t : Fin cfg0.N) (k : Fin 128) (q : Fin 128) :
    iblk0 V c 3 t (ix2 k q) = V c main_v0 (ix2 k q) := by
  show V c main_v0 (((cfg0.win 3).blk t).view.emb (ix2 k q)) = _
  refine congrArg _ (funext fun a => Fin.ext ?_)
  obtain ⟨-, -, -, -, -, -, e30, e31, -⟩ := idx_facts0 t
  match a with
  | ⟨0, _⟩ => show win0_3.index t (0 : Fin 2) * 128 + 1 * k.val = k.val; rw [e30]; omega
  | ⟨1, _⟩ => show win0_3.index t (1 : Fin 2) * 128 + 1 * q.val = q.val; rw [e31]; omega

theorem blk0_4 (c : Dev nD) (t : Fin cfg0.N) (k : Fin 128) (q : Fin 128) :
    iblk0 V c 4 t (ix2 k q) = V c main_v1 (ix2 k q) := by
  show V c main_v1 (((cfg0.win 4).blk t).view.emb (ix2 k q)) = _
  refine congrArg _ (funext fun a => Fin.ext ?_)
  obtain ⟨-, -, -, -, -, -, -, -, e40, e41, -⟩ := idx_facts0 t
  match a with
  | ⟨0, _⟩ => show win0_4.index t (0 : Fin 2) * 128 + 1 * k.val = k.val; rw [e40]; omega
  | ⟨1, _⟩ => show win0_4.index t (1 : Fin 2) * 128 + 1 * q.val = q.val; rw [e41]; omega

/-- Entry (p, q) of point t's output block lies at (4000 t + p, q) of the result array. -/
theorem emb0_5 (t : Fin cfg0.N) (p : Fin 4000) (q : Fin 128) :
    ((cfg0.win 5).blk t).view.emb (ix2 p q) = ix2 (rowAt t.val (point_lt0 t) p) q := by
  refine funext fun a => Fin.ext ?_
  obtain ⟨-, -, -, -, -, -, -, -, -, -, e50, e51⟩ := idx_facts0 t
  match a with
  | ⟨0, _⟩ => show win0_5.index t (0 : Fin 2) * 4000 + 1 * p.val = t.val * 4000 + p.val; rw [e50]; omega
  | ⟨1, _⟩ => show win0_5.index t (1 : Fin 2) * 128 + 1 * q.val = q.val; rw [e51]; omega

/-! ## The array the first grid leaves -/

/-- The linear layer scaled by the factor column, as one function of the arrays the grid reads. -/
def linScaledArr (a0 a1 : FVec Ideal S100000x128 .f32) (d : FVec Ideal S100000x1 .f32) (w0 w1 : FVec Ideal S128x128 .f32) :
    FVec Ideal S100000x128 .f32 := fun i =>
  (∑ k : Fin 128, a0 (ix2 (i 0) k) * w0 (ix2 k (i 1)) + ∑ k : Fin 128, a1 (ix2 (i 0) k) * w1 (ix2 k (i 1)))
    * d (ix2 (i 0) (0 : Fin 1))

theorem linScaledArr_at (a0 a1 : FVec Ideal S100000x128 .f32) (d : FVec Ideal S100000x1 .f32) (w0 w1 : FVec Ideal S128x128 .f32)
    (n : Fin 100000) (q : Fin 128) :
    linScaledArr a0 a1 d w0 w1 (ix2 n q)
      = (∑ k : Fin 128, a0 (ix2 n k) * w0 (ix2 k q) + ∑ k : Fin 128, a1 (ix2 n k) * w1 (ix2 k q)) * d (ix2 n (0 : Fin 1)) := rfl

/-- What point t writes back is block t of that function of the arrays as the grid finds them. -/
theorem flushed0_eq (c : Dev nD) (t : Fin cfg0.N) :
    (dat0 V c).flushed 5 t = ((cfg0.win 5).blk t).view.read (Elt Ideal)
      (linScaledArr (V c main_arg0) (V c main_arg1) (V c main_v13) (V c main_v0) (V c main_v1)) := by
  show (cfg0.win 5).cut (grid0.coords t) ((dat0 V c).after 5 t) = _
  rw [after0_5]
  unfold out0_5
  rw [View.canon_unit_zero zeros2]
  simp only [View.ld_unit_zero (S := S4000x128) zeros2, View.ld_unit_zero (S := S128x128) zeros2, View.ld_unit_zero (S := S4000x1) zeros2]
  funext j
  obtain ⟨p, q, rfl⟩ : ∃ (p : Fin 4000) (q : Fin 128), j = ix2 p q := ⟨j 0, j 1, eq_ix2 j⟩
  show k0_pay1 (iblk0 V c 0 t) (iblk0 V c 1 t) (iblk0 V c 3 t) (iblk0 V c 4 t) (iblk0 V c 2 t) (ix2 p q)
    = linScaledArr (V c main_arg0) (V c main_arg1) (V c main_v13) (V c main_v0) (V c main_v1) (((cfg0.win 5).blk t).view.emb (ix2 p q))
  rw [emb0_5 t p q, linScaledArr_at]
  refine (linear_block_at _ _ _ _ _ p q).trans ?_
  rw [blk0_2 V c t p]
  refine congrArg₂ (· * ·) (congrArg₂ (· + ·) (Finset.sum_congr rfl fun k _ => ?_) (Finset.sum_congr rfl fun k _ => ?_)) rfl
  · rw [blk0_0 V c t p k, blk0_3 V c t k q]
  · rw [blk0_1 V c t p k, blk0_4 V c t k q]

/-- An index of the result array is in point t's block iff each coordinate is in the block's range. -/
theorem mem_blk0 (t : Fin cfg0.N) (i : S100000x128.Idx) :
    i ∈ ((cfg0.win 5).blk t).view.set ↔ ∀ a : Fin 2, win0_5.index t a * S4000x128.size a ≤ (i a).val
      ∧ (i a).val < win0_5.index t a * S4000x128.size a + S4000x128.size a := by
  show i ∈ ((View.whole main_v14).slice (win0_5.rect t)).set ↔ _
  rw [View.set_slice_whole, Rect.mem_set_unit]
  exact Iff.rfl

/-- The 25 blocks cover the result array: row n is in block n / 4000. -/
theorem cover0 (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 4000 < cfg0.N := lt_of_lt_of_eq (by omega : (i 0).val / 4000 < 25) N_0.symm
  refine ⟨⟨(i 0).val / 4000, hlt⟩, flush0_5 _, ?_⟩
  rw [mem_blk0]
  obtain ⟨-, -, -, -, -, -, -, -, -, -, e50, e51⟩ := idx_facts0 ⟨(i 0).val / 4000, hlt⟩
  intro a
  match a with
  | ⟨0, _⟩ =>
    show win0_5.index ⟨(i 0).val / 4000, hlt⟩ (0 : Fin 2) * 4000 ≤ (i 0).val
      ∧ (i 0).val < win0_5.index ⟨(i 0).val / 4000, hlt⟩ (0 : Fin 2) * 4000 + 4000
    rw [e50]; show (i 0).val / 4000 * 4000 ≤ (i 0).val ∧ (i 0).val < (i 0).val / 4000 * 4000 + 4000; omega
  | ⟨1, _⟩ =>
    show win0_5.index ⟨(i 0).val / 4000, hlt⟩ (1 : Fin 2) * 128 ≤ (i 1).val
      ∧ (i 1).val < win0_5.index ⟨(i 0).val / 4000, hlt⟩ (1 : Fin 2) * 128 + 128
    rw [e51]; omega

/-- The result array after the first grid. -/
theorem final0 (c : Dev nD) :
    (dat0 V c).arrAt 5 cfg0.N = linScaledArr (V c main_arg0) (V c main_arg1) (V c main_v13) (V c main_v0) (V c main_v1) :=
  (dat0 V c).arrAt_eq_of_cover 5 _ (fun t _ => flushed0_eq V c t) cover0

end Cert.KernelIdeal.KVal

end
-- ==== Proof.KernelRegion1.lean ====
/-
  The second grid: the logistic layer and the output product.

  The grid has 25 points; point t owns rows 4000 t … 4000 t + 3999 of every row-blocked array, the whole 128 × 128
  matrix V and the whole bias vector. On its block the body forms

      s = (b + d * (agg + hsc)) + bias      (d the factor column spread along the row, bias spread down the rows)

  stores  logistic s  as the new hidden state, and stores  c + (logistic s) V  (a product into the zero accumulator;
  rounding to bf16 on the way in is the identity on extended reals) as the output. Read back through the blocks, which
  tile both result arrays, the arrays end holding these two functions of the arrays the grid was entered with.
-/
import proofs.«131673_j33354716021156_2_alg».proof.Proof.KernelRegion0
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The body's payloads at an entry -/

/-- Entry (p, q) of the new hidden state's block. -/
theorem hidden_block_at (d : Vec Ideal S4000x1 .f32) (agg hsc : Vec Ideal S4000x128 .f32) (bias : Vec Ideal S128 .f32)
    (b : Vec Ideal S4000x128 .f32) (p : Fin 4000) (q : Fin 128) :
    k1_pay1 d agg hsc bias b (ix2 p q)
      = Ideal.logistic ((b (ix2 p q) + d (ix2 p (0 : Fin 1)) * (agg (ix2 p q) + hsc (ix2 p q))) + bias (ix1 q)) := by
  unfold k1_pay1
  show Ideal.logistic (_ : EReal) = _
  refine congrArg Ideal.logistic ?_
  refine (addf_apply _ _ (ix2 p q)).trans (congrArg₂ (· + ·) ((addf_apply _ _ (ix2 p q)).trans (congrArg₂ (· + ·) rfl ?_)) ?_)
  · refine (mulf_apply _ _ (ix2 p q)).trans (congrArg₂ (· * ·) ?_ ?_)
    · refine (Cert.LibColBroadcast.broadcastTo_a1_ab_apply _ _ p q).trans ?_
      rw [shapeCast_self]
    · refine (addf_apply _ _ (ix2 p q)).trans ?_
      rw [shapeCast_self, shapeCast_self]
  · refine (broadcastTo_1b_ab_apply _ _ p q).trans ?_
    exact shapeCast_a_1a_apply bias _ (0 : Fin 1) q

/-- Entry (p, q) of the output's block: the block of c plus the hidden block against V. -/
theorem out_block_at (d : Vec Ideal S4000x1 .f32) (agg hsc : Vec Ideal S4000x128 .f32) (bias : Vec Ideal S128 .f32)
    (b : Vec Ideal S4000x128 .f32) (Vm : Vec Ideal S128x128 .f32) (cm : Vec Ideal S4000x128 .f32) (p : Fin 4000) (q : Fin 128) :
    k1_pay2 d agg hsc bias b Vm cm (ix2 p q)
      = cm (ix2 p q) + ∑ k : Fin 128, k1_pay1 d agg hsc bias b (ix2 p k) * Vm (ix2 k q) := by
  unfold k1_pay2
  refine (addf_apply _ _ (ix2 p q)).trans (congrArg₂ (· + ·) rfl ?_)
  exact block_product_at _ _ p q

/-! ## The grid's index maps -/

theorem zeros1 : (![0] : Fin 1 → Nat) = fun _ => 0 := funext fun a => by fin_cases a; rfl

/-- Point t's block index in each window: the row-blocked windows are at (t, 0), V at (0, 0), the bias at (0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0
    ∧ win1_8.index t (0 : Fin 2) = t.val ∧ win1_8.index t (1 : Fin 2) = 0 :=
  (by decide +kernel : ∀ t : Fin grid1.N, _)

theorem point_lt1 (t : Fin cfg1.N) : t.val < 25 := lt_of_lt_of_eq t.isLt N_1

variable (V : (c : Dev nD) → (b : Ref sig .tc) → Buf (Elt Ideal) ((c : Thread nD τ).loc b))

/-! ## The windows' blocks at an entry -/

theorem blk1_0 (c : Dev nD) (t : Fin cfg1.N) (p : Fin 4000) (k : Fin 128) :
    iblk1 V c 0 t (ix2 p k) = V c main_arg4 (ix2 (rowAt t.val (point_lt1 t) p) k) := by
  show V c main_arg4 (((cfg1.win 0).blk t).view.emb (ix2 p k)) = _
  refine congrArg _ (funext fun a => Fin.ext ?_)
  obtain ⟨e0, e1, -⟩ := idx_facts1 t
  match a with
  | ⟨0, _⟩ => show win1_0.index t (0 : Fin 2) * 4000 + 1 * p.val = t.val * 4000 + p.val; rw [e0]; omega
  | ⟨1, _⟩ => show win1_0.index t (1 : Fin 2) * 128 + 1 * k.val = k.val; rw [e1]; omega

theorem blk1_1 (c : Dev nD) (t : Fin cfg1.N) (p : Fin 4000) (k : Fin 128) :
    iblk1 V c 1 t (ix2 p k) = V c main_v24 (ix2 (rowAt t.val (point_lt1 t) p) k) := by
  show V c main_v24 (((cfg1.win 1).blk t).view.emb (ix2 p k)) = _
  refine congrArg _ (funext fun a => Fin.ext ?_)
  obtain ⟨-, -, e0, e1, -⟩ := idx_facts1 t
  match a with
  | ⟨0, _⟩ => show win1_1.index t (0 : Fin 2) * 4000 + 1 * p.val = t.val * 4000 + p.val; rw [e0]; omega
  | ⟨1, _⟩ => show win1_1.index t (1 : Fin 2) * 128 + 1 * k.val = k.val; rw [e1]; omega

theorem blk1_2 (c : Dev nD) (t : Fin cfg1.N) (p : Fin 4000) (k : Fin 128) :
    iblk1 V c 2 t (ix2 p k) = V c main_v14 (ix2 (rowAt t.val (point_lt1 t) p) k) := by
  show V c main_v14 (((cfg1.win 2).blk t).view.emb (ix2 p k)) = _
  refine congrArg _ (funext fun a => Fin.ext ?_)
  obtain ⟨-, -, -, -, e0, e1, -⟩ := idx_facts1 t
  match a with
  | ⟨0, _⟩ => show win1_2.index t (0 : Fin 2) * 4000 + 1 * p.val = t.val * 4000 + p.val; rw [e0]; omega
  | ⟨1, _⟩ => show win1_2.index t (1 : Fin 2) * 128 + 1 * k.val = k.val; rw [e1]; omega

theorem blk1_3 (c : Dev nD) (t : Fin cfg1.N) (p : Fin 4000) :
    iblk1 V c 3 t (ix2 p (0 : Fin 1)) = V c main_v13 (ix2 (rowAt t.val (point_lt1 t) p) (0 : Fin 1)) := by
  show V c main_v13 (((cfg1.win 3).blk t).view.emb (ix2 p (0 : Fin 1))) = _
  refine congrArg _ (funext fun a => Fin.ext ?_)
  obtain ⟨-, -, -, -, -, -, e0, e1, -⟩ := idx_facts1 t
  match a with
  | ⟨0, _⟩ => show win1_3.index t (0 : Fin 2) * 4000 + 1 * p.val = t.val * 4000 + p.val; rw [e0]; omega
  | ⟨1, _⟩ => show win1_3.index t (1 : Fin 2) * 1 + 1 * 0 = 0; rw [e1]

theorem blk1_4 (c : Dev nD) (t : Fin cfg1.N) (p : Fin 4000) (k : Fin 128) :
    iblk1 V c 4 t (ix2 p k) = V c main_arg6 (ix2 (rowAt t.val (point_lt1 t) p) k) := by
  show V c main_arg6 (((cfg1.win 4).blk t).view.emb (ix2 p k)) = _
  refine congrArg _ (funext fun a => Fin.ext ?_)
  obtain ⟨-, -, -, -, -, -, -, -, e0, e1, -⟩ := idx_facts1 t
  match a with
  | ⟨0, _⟩ => show win1_4.index t (0 : Fin 2) * 4000 + 1 * p.val = t.val * 4000 + p.val; rw [e0]; omega
  | ⟨1, _⟩ => show win1_4.index t (1 : Fin 2) * 128 + 1 * k.val = k.val; rw [e1]; omega

theorem blk1_5 (c : Dev nD) (t : Fin cfg1.N) (k : Fin 128) (q : Fin 128) :
    iblk1 V c 5 t (ix2 k q) = V c main_arg5 (ix2 k q) := by
  show V c main_arg5 (((cfg1.win 5).blk t).view.emb (ix2 k q)) = _
  refine congrArg _ (funext fun a => Fin.ext ?_)
  obtain ⟨-, -, -, -, -, -, -, -, -, -, e0, e1, -⟩ := idx_facts1 t
  match a with
  | ⟨0, _⟩ => show win1_5.index t (0 : Fin 2) * 128 + 1 * k.val = k.val; rw [e0]; omega
  | ⟨1, _⟩ => show win1_5.index t (1 : Fin 2) * 128 + 1 * q.val = q.val; rw [e1]; omega

theorem blk1_6 (c : Dev nD) (t : Fin cfg1.N) (q : Fin 128) :
    iblk1 V c 6 t (ix1 q) = V c main_arg3 (ix1 q) := by
  show V c main_arg3 (((cfg1.win 6).blk t).view.emb (ix1 q)) = _
  refine congrArg _ (funext fun a => Fin.ext ?_)
  obtain ⟨-, -, -, -, -, -, -, -, -, -, -, -, e0, -⟩ := idx_facts1 t
  match a with
  | ⟨0, _⟩ => show win1_6.index t (0 : Fin 1) * 128 + 1 * q.val = q.val; rw [e0]; omega

theorem emb1_7 (t : Fin cfg1.N) (p : Fin 4000) (q : Fin 128) :
    ((cfg1.win 7).blk t).view.emb (ix2 p q) = ix2 (rowAt t.val (point_lt1 t) p) q := by
  refine funext fun a => Fin.ext ?_
  obtain ⟨-, -, -, -, -, -, -, -, -, -, -, -, -, e0, e1, -⟩ := idx_facts1 t
  match a with
  | ⟨0, _⟩ => show win1_7.index t (0 : Fin 2) * 4000 + 1 * p.val = t.val * 4000 + p.val; rw [e0]; omega
  | ⟨1, _⟩ => show win1_7.index t (1 : Fin 2) * 128 + 1 * q.val = q.val; rw [e1]; omega

theorem emb1_8 (t : Fin cfg1.N) (p : Fin 4000) (q : Fin 128) :
    ((cfg1.win 8).blk t).view.emb (ix2 p q) = ix2 (rowAt t.val (point_lt1 t) p) q := by
  refine funext fun a => Fin.ext ?_
  obtain ⟨-, -, -, -, -, -, -, -, -, -, -, -, -, -, -, e0, e1⟩ := idx_facts1 t
  match a with
  | ⟨0, _⟩ => show win1_8.index t (0 : Fin 2) * 4000 + 1 * p.val = t.val * 4000 + p.val; rw [e0]; omega
  | ⟨1, _⟩ => show win1_8.index t (1 : Fin 2) * 128 + 1 * q.val = q.val; rw [e1]; omega

/-! ## The arrays the second grid leaves -/

/-- The new hidden state as one function of the arrays the grid reads. -/
def hiddenOf (b agg hsc : FVec Ideal S100000x128 .f32) (d : FVec Ideal S100000x1 .f32) (bias : FVec Ideal S128 .f32) :
    FVec Ideal S100000x128 .f32 := fun i =>
  Ideal.logistic ((b (ix2 (i 0) (i 1)) + d (ix2 (i 0) (0 : Fin 1)) * (agg (ix2 (i 0) (i 1)) + hsc (ix2 (i 0) (i 1)))) + bias (ix1 (i 1)))

theorem hiddenOf_at (b agg hsc : FVec Ideal S100000x128 .f32) (d : FVec Ideal S100000x1 .f32) (bias : FVec Ideal S128 .f32)
    (n : Fin 100000) (q : Fin 128) :
    hiddenOf b agg hsc d bias (ix2 n q)
      = Ideal.logistic ((b (ix2 n q) + d (ix2 n (0 : Fin 1)) * (agg (ix2 n q) + hsc (ix2 n q))) + bias (ix1 q)) := rfl

/-- The output as one function of the arrays the grid reads. -/
def outOf (b agg hsc : FVec Ideal S100000x128 .f32) (d : FVec Ideal S100000x1 .f32) (bias : FVec Ideal S128 .f32)
    (Vm : FVec Ideal S128x128 .f32) (cm : FVec Ideal S100000x128 .f32) : FVec Ideal S100000x128 .f32 := fun i =>
  cm (ix2 (i 0) (i 1)) + ∑ k : Fin 128, hiddenOf b agg hsc d bias (ix2 (i 0) k) * Vm (ix2 k (i 1))

theorem outOf_at (b agg hsc : FVec Ideal S100000x128 .f32) (d : FVec Ideal S100000x1 .f32) (bias : FVec Ideal S128 .f32)
    (Vm : FVec Ideal S128x128 .f32) (cm : FVec Ideal S100000x128 .f32) (n : Fin 100000) (q : Fin 128) :
    outOf b agg hsc d bias Vm cm (ix2 n q)
      = cm (ix2 n q) + ∑ k : Fin 128, hiddenOf b agg hsc d bias (ix2 n k) * Vm (ix2 k q) := rfl

/-- Entry (p, k) of point t's hidden block is the hidden function at row 4000 t + p. -/
theorem hidden_point_at (c : Dev nD) (t : Fin cfg1.N) (p : Fin 4000) (k : Fin 128) :
    k1_pay1 (iblk1 V c 3 t) (iblk1 V c 1 t) (iblk1 V c 2 t) (iblk1 V c 6 t) (iblk1 V c 0 t) (ix2 p k)
      = hiddenOf (V c main_arg4) (V c main_v24) (V c main_v14) (V c main_v13) (V c main_arg3) (ix2 (rowAt t.val (point_lt1 t) p) k) := by
  refine (hidden_block_at _ _ _ _ _ p k).trans ?_
  rw [hiddenOf_at, blk1_0 V c t p k, blk1_1 V c t p k, blk1_2 V c t p k, blk1_3 V c t p, blk1_6 V c t k]

/-- What point t writes back to the hidden state is block t of the hidden function. -/
theorem flushed1_7_eq (c : Dev nD) (t : Fin cfg1.N) :
    (dat1 V c).flushed 7 t = ((cfg1.win 7).blk t).view.read (Elt Ideal)
      (hiddenOf (V c main_arg4) (V c main_v24) (V c main_v14) (V c main_v13) (V c main_arg3)) := by
  show (cfg1.win 7).cut (grid1.coords t) ((dat1 V c).after 7 t) = _
  rw [after1_7]
  unfold out1_7
  rw [View.canon_unit_zero zeros2]
  simp only [View.ld_unit_zero (S := S4000x128) zeros2, View.ld_unit_zero (S := S4000x1) zeros2, View.ld_unit_zero (S := S128) zeros1]
  funext j
  obtain ⟨p, q, rfl⟩ : ∃ (p : Fin 4000) (q : Fin 128), j = ix2 p q := ⟨j 0, j 1, eq_ix2 j⟩
  show k1_pay1 (iblk1 V c 3 t) (iblk1 V c 1 t) (iblk1 V c 2 t) (iblk1 V c 6 t) (iblk1 V c 0 t) (ix2 p q)
    = hiddenOf (V c main_arg4) (V c main_v24) (V c main_v14) (V c main_v13) (V c main_arg3) (((cfg1.win 7).blk t).view.emb (ix2 p q))
  rw [emb1_7 t p q]
  exact hidden_point_at V c t p q

/-- What point t writes back to the output is block t of the output function. -/
theorem flushed1_8_eq (c : Dev nD) (t : Fin cfg1.N) :
    (dat1 V c).flushed 8 t = ((cfg1.win 8).blk t).view.read (Elt Ideal)
      (outOf (V c main_arg4) (V c main_v24) (V c main_v14) (V c main_v13) (V c main_arg3) (V c main_arg5) (V c main_arg6)) := by
  show (cfg1.win 8).cut (grid1.coords t) ((dat1 V c).after 8 t) = _
  rw [after1_8]
  unfold out1_8
  rw [View.canon_unit_zero zeros2]
  simp only [View.ld_unit_zero (S := S4000x128) zeros2, View.ld_unit_zero (S := S4000x1) zeros2, View.ld_unit_zero (S := S128) zeros1,
    View.ld_unit_zero (S := S128x128) zeros2]
  funext j
  obtain ⟨p, q, rfl⟩ : ∃ (p : Fin 4000) (q : Fin 128), j = ix2 p q := ⟨j 0, j 1, eq_ix2 j⟩
  show k1_pay2 (iblk1 V c 3 t) (iblk1 V c 1 t) (iblk1 V c 2 t) (iblk1 V c 6 t) (iblk1 V c 0 t) (iblk1 V c 5 t) (iblk1 V c 4 t) (ix2 p q)
    = outOf (V c main_arg4) (V c main_v24) (V c main_v14) (V c main_v13) (V c main_arg3) (V c main_arg5) (V c main_arg6)
        (((cfg1.win 8).blk t).view.emb (ix2 p q))
  rw [emb1_8 t p q, outOf_at]
  refine (out_block_at _ _ _ _ _ _ _ p q).trans ?_
  rw [blk1_4 V c t p q]
  refine congrArg₂ (· + ·) rfl (Finset.sum_congr rfl fun k _ => ?_)
  rw [hidden_point_at V c t p k, blk1_5 V c t k q]

theorem mem_blk1_7 (t : Fin cfg1.N) (i : S100000x128.Idx) :
    i ∈ ((cfg1.win 7).blk t).view.set ↔ ∀ a : Fin 2, win1_7.index t a * S4000x128.size a ≤ (i a).val
      ∧ (i a).val < win1_7.index t a * S4000x128.size a + S4000x128.size a := by
  show i ∈ ((View.whole main_v25_0).slice (win1_7.rect t)).set ↔ _
  rw [View.set_slice_whole, Rect.mem_set_unit]
  exact Iff.rfl

theorem mem_blk1_8 (t : Fin cfg1.N) (i : S100000x128.Idx) :
    i ∈ ((cfg1.win 8).blk t).view.set ↔ ∀ a : Fin 2, win1_8.index t a * S4000x128.size a ≤ (i a).val
      ∧ (i a).val < win1_8.index t a * S4000x128.size a + S4000x128.size a := by
  show i ∈ ((View.whole main_v25_1).slice (win1_8.rect t)).set ↔ _
  rw [View.set_slice_whole, Rect.mem_set_unit]
  exact Iff.rfl

theorem cover1_7' (i : S100000x128.Idx) : ∃ t : Fin cfg1.N, (cfg1.win 7).flush t = true ∧ i ∈ ((cfg1.win 7).blk t).view.set := by
  have hi0 : (i 0).val < 100000 := (i 0).isLt
  have hi1 : (i 1).val < 128 := (i 1).isLt
  have hlt : (i 0).val / 4000 < cfg1.N := lt_of_lt_of_eq (by omega : (i 0).val / 4000 < 25) N_1.symm
  refine ⟨⟨(i 0).val / 4000, hlt⟩, flush1_7 _, ?_⟩
  rw [mem_blk1_7]
  obtain ⟨-, -, -, -, -, -, -, -, -, -, -, -, -, e0, e1, -⟩ := idx_facts1 ⟨(i 0).val / 4000, hlt⟩
  intro a
  match a with
  | ⟨0, _⟩ =>
    show win1_7.index ⟨(i 0).val / 4000, hlt⟩ (0 : Fin 2) * 4000 ≤ (i 0).val
      ∧ (i 0).val < win1_7.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_7.index ⟨(i 0).val / 4000, hlt⟩ (1 : Fin 2) * 128 ≤ (i 1).val
      ∧ (i 1).val < win1_7.index ⟨(i 0).val / 4000, hlt⟩ (1 : Fin 2) * 128 + 128
    rw [e1]; omega

theorem cover1_8' (i : S100000x128.Idx) : ∃ t : Fin cfg1.N, (cfg1.win 8).flush t = true ∧ i ∈ ((cfg1.win 8).blk t).view.set := by
  have hi0 : (i 0).val < 100000 := (i 0).isLt
  have hi1 : (i 1).val < 128 := (i 1).isLt
  have hlt : (i 0).val / 4000 < cfg1.N := lt_of_lt_of_eq (by omega : (i 0).val / 4000 < 25) N_1.symm
  refine ⟨⟨(i 0).val / 4000, hlt⟩, flush1_8 _, ?_⟩
  rw [mem_blk1_8]
  obtain ⟨-, -, -, -, -, -, -, -, -, -, -, -, -, -, -, e0, e1⟩ := idx_facts1 ⟨(i 0).val / 4000, hlt⟩
  intro a
  match a with
  | ⟨0, _⟩ =>
    show win1_8.index ⟨(i 0).val / 4000, hlt⟩ (0 : Fin 2) * 4000 ≤ (i 0).val
      ∧ (i 0).val < win1_8.index ⟨(i 0).val / 4000, hlt⟩ (0 : Fin 2) * 4000 + 4000
    rw [e0]; show (i 0).val / 4000 * 4000 ≤ (i 0).val ∧ (i 0).val < (i 0).val / 4000 * 4000 + 4000; omega
  | ⟨1, _⟩ =>
    show win1_8.index ⟨(i 0).val / 4000, hlt⟩ (1 : Fin 2) * 128 ≤ (i 1).val
      ∧ (i 1).val < win1_8.index ⟨(i 0).val / 4000, hlt⟩ (1 : Fin 2) * 128 + 128
    rw [e1]; omega

/-- The new hidden state after the second grid. -/
theorem final1_7 (c : Dev nD) :
    (dat1 V c).arrAt 7 cfg1.N = hiddenOf (V c main_arg4) (V c main_v24) (V c main_v14) (V c main_v13) (V c main_arg3) :=
  (dat1 V c).arrAt_eq_of_cover 7 _ (fun t _ => flushed1_7_eq V c t) cover1_7'

/-- The output after the second grid. -/
theorem final1_8 (c : Dev nD) :
    (dat1 V c).arrAt 8 cfg1.N
      = outOf (V c main_arg4) (V c main_v24) (V c main_v14) (V c main_v13) (V c main_arg3) (V c main_arg5) (V c main_arg6) :=
  (dat1 V c).arrAt_eq_of_cover 8 _ (fun t _ => flushed1_8_eq V c t) cover1_8'

end Cert.KernelIdeal.KVal

end
-- ==== Proof.LibGatherRows.lean ====
/-
  A gather of whole rows of a matrix, and of entries of a vector, by one index per row of an [M, 1] index array,
  read at an index.

  ROWS: operand [N, C], indices [M, 1], result [M, C]: entry (e, j) is the operand at (clamp (idx e), j).
  ENTRIES: operand [N], the same indices, result [M]: entry e is the operand at clamp (idx e).
  In both the index word is read signed and clamped into [0, N − 1] (a negative word to 0), the same clamp for the
  two layouts: a row gathered from a matrix and an entry gathered from a vector by one index array come from one row.
-/
import Idealize.ShloMosaic.Lib.ValueIdx

namespace Cert.Lib

open Idealize.ShloMosaic Idealize.ShloMosaic.ValueIdx

variable {N M C w : Nat} {α : Type}

/-- The row the index word of entry `e` names, read signed and clamped into the operand. -/
def clampRow (N : Nat) (hN : 0 < N) (idx : IVec ⟨2, ![M, 1]⟩ w) (e : Fin M) : Fin N :=
  ⟨min (idx (ix2 e (0 : Fin 1))).toInt.toNat (N - 1), by omega⟩

/-- A word that is a row number, read signed, clamps to that row. -/
theorem clampRow_of_toInt (hN : 0 < N) (idx : IVec ⟨2, ![M, 1]⟩ w) (e : Fin M) (p : Fin N)
    (h : (idx (ix2 e (0 : Fin 1))).toInt = (p.val : Int)) : clampRow N hN idx e = p := by
  apply Fin.ext
  show min (idx (ix2 e (0 : Fin 1))).toInt.toNat (N - 1) = p.val
  rw [h, Int.toNat_natCast]
  have := p.isLt
  omega

/-- The clamped row depends only on the index words. -/
theorem clampRow_congr (hN : 0 < N) (idx idx' : IVec ⟨2, ![M, 1]⟩ w) (e : Fin M)
    (h : idx (ix2 e (0 : Fin 1)) = idx' (ix2 e (0 : Fin 1))) : clampRow N hN idx e = clampRow N hN idx' e := by
  apply Fin.ext
  show min (idx (ix2 e (0 : Fin 1))).toInt.toNat (N - 1) = min (idx' (ix2 e (0 : Fin 1))).toInt.toNat (N - 1)
  rw [h]

/-- The dimension numbers of a gather of whole rows, as a record over given sizes. -/
abbrev rowDims (N M C : Nat) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- The dimension numbers of a gather of entries of a vector. -/
abbrev vecDims (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

theorem rowDims_gather_apply (hN : 0 < N) (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (j : Fin C) :
    Host.gather (rowDims N M C wf) x idx (ix2 e j) = x (ix2 (clampRow N hN idx e) j) := by
  unfold Host.gather
  congr 1
  funext a
  refine Fin.ext ?_
  match a with
  | ⟨0, _⟩ =>
    show (rowDims N M C wf).start (ix2 e j) idx 0 + (rowDims N M C wf).batchCoord (ix2 e j) 0 + (rowDims N M C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N M C wf).startIndexMap from List.mem_singleton.mpr rfl)]
    have hsi : (rowDims N M C wf).siIdx (ix2 e j) ⟨List.idxOf (0 : Fin 2) (rowDims N M C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N M C wf).start (ix2 e j) idx 1 + (rowDims N M C wf).batchCoord (ix2 e j) 1 + (rowDims N M C wf).offCoord (ix2 e j) 1 = j.val
    rw [GatherDims.batchCoord_eq_zero _ _ _ List.not_mem_nil]
    unfold GatherDims.start GatherDims.offCoord
    rw [dif_neg (show ¬ (1 : Fin 2) ∈ (rowDims N M C wf).startIndexMap from (by decide : ¬ (1 : Fin 2) ∈ ([0] : List (Fin 2)))),
      dif_pos (show (1 : Fin 2) ∈ (rowDims N M C wf).sKept from
        (by decide : (1 : Fin 2) ∈ (List.finRange 2).filter (· ∉ (([0] : List (Fin 2)) ++ []))))]
    simp only [Nat.zero_add, Nat.add_zero]
    rfl

theorem vecDims_gather_apply (hN : 0 < N) (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (e : Fin M) :
    Host.gather (vecDims N M wf) x idx (ix1 e) = x (ix1 (clampRow N hN idx e)) := by
  unfold Host.gather
  congr 1
  funext a
  refine Fin.ext ?_
  match a with
  | ⟨0, _⟩ =>
    show (vecDims N M wf).start (ix1 e) idx 0 + (vecDims N M wf).batchCoord (ix1 e) 0 + (vecDims N M wf).offCoord (ix1 e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (vecDims N M wf).startIndexMap from List.mem_singleton.mpr rfl)]
    have hsi : (vecDims N M wf).siIdx (ix1 e) ⟨List.idxOf (0 : Fin 1) (vecDims N M wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl

/-- The dimension numbers of a gather of whole rows. -/
structure IsRowGather (d : GatherDims ⟨2, ![N, C]⟩ ⟨2, ![M, 1]⟩ ⟨2, ![M, C]⟩) : Prop where
  od : d.offsetDims = [1]
  cs : d.collapsedSliceDims = [0]
  ob : d.operandBatchingDims = []
  sb : d.startIndicesBatchingDims = []
  sm : d.startIndexMap = [0]
  iv : d.indexVectorDim = 1
  ss : d.sliceSizes = ![1, C]

/-- The dimension numbers of a gather of entries of a vector. -/
structure IsVecGather (d : GatherDims ⟨1, ![N]⟩ ⟨2, ![M, 1]⟩ ⟨1, ![M]⟩) : Prop where
  od : d.offsetDims = []
  cs : d.collapsedSliceDims = [0]
  ob : d.operandBatchingDims = []
  sb : d.startIndicesBatchingDims = []
  sm : d.startIndexMap = [0]
  iv : d.indexVectorDim = 1
  ss : d.sliceSizes = ![1]

/-- A gather of rows read at (e, j): the operand at (the clamped row idx e, j). -/
theorem row_gather_apply (hN : 0 < N) (d : GatherDims ⟨2, ![N, C]⟩ ⟨2, ![M, 1]⟩ ⟨2, ![M, C]⟩) (hd : IsRowGather d)
    (x : (⟨2, ![N, C]⟩ : Shape).Idx → α) (idx : IVec ⟨2, ![M, 1]⟩ w) (e : Fin M) (j : Fin C) :
    Host.gather d x idx (ix2 e j) = x (ix2 (clampRow N hN idx e) j) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact rowDims_gather_apply hN wf x idx e j

/-- A gather of entries read at e: the operand at the clamped index idx e. -/
theorem vec_gather_apply (hN : 0 < N) (d : GatherDims ⟨1, ![N]⟩ ⟨2, ![M, 1]⟩ ⟨1, ![M]⟩) (hd : IsVecGather d)
    (x : (⟨1, ![N]⟩ : Shape).Idx → α) (idx : IVec ⟨2, ![M, 1]⟩ w) (e : Fin M) :
    Host.gather d x idx (ix1 e) = x (ix1 (clampRow N hN idx e)) := by
  obtain ⟨od, cs, ob, sb, sm, iv, ss, wf⟩ := d
  obtain ⟨h1, h2, h3, h4, h5, h6, h7⟩ := hd
  dsimp only at h1 h2 h3 h4 h5 h6 h7
  subst h1 h2 h3 h4 h5 h6 h7
  exact vecDims_gather_apply hN wf x idx e

end Cert.Lib
-- ==== Proof.GcnSpec.lean ====
/-
  The function both programs compute, index by index, over the argument arrays.

  A graph of 100000 nodes and 1600000 directed edges is given as a [2, 1600000] array of 32-bit words: row 0 holds each
  edge's source, row 1 its destination. An edge LANDS on node p when its destination word, read signed, is p; an edge
  whose destination is no node lands nowhere. An edge READS the row its source word names: a negative word is first
  moved up by 100000, then the word is read signed and clamped into [0, 99999].

    deg p      = (0 + the number of edges landing on p, counted in ones) + 1        (the node's own loop)
    dinv p     = 1 / sqrt (deg p)
    lin p q    = sum_k x(p,k) W(k,q) + sum_k hs(p,k) W(128 + k, q)                  (the two halves of the weight matrix)
    scaled p q = lin p q * dinv p
    gathered p q = 0 + the sum over the edges e landing on p of scaled (the row e reads) q
    pre p q    = (b(p,q) + dinv p * (gathered p q + scaled p q)) + bias q
    hidden p q = logistic (pre p q)
    out p q    = c(p,q) + sum_k hidden p k * V(k,q)

  The words of 0 and 1 are kept as words: the same word stands on both sides of every equation they meet.
-/
import Idealize.ShloMosaic.PureOps.Ideal
import Idealize.ShloMosaic.Lib.ValueIdx
import proofs.«131673_j33354716021156_2_alg».proof.Proof.LibGatherRows

noncomputable section

namespace Cert.Gcn

open Idealize.ShloMosaic Idealize.ShloMosaic.ValueIdx Finset Cert.Lib

abbrev SNC : Shape := ⟨2, ![100000, 128]⟩
abbrev SW : Shape := ⟨2, ![256, 128]⟩
abbrev SV : Shape := ⟨2, ![128, 128]⟩
abbrev SB : Shape := ⟨1, ![128]⟩
abbrev SEI : Shape := ⟨2, ![2, 1600000]⟩
abbrev SE1 : Shape := ⟨2, ![1600000, 1]⟩

/-- The words of 0 and of 1. -/
abbrev zeroW : EReal := Ideal.ofBits .f32 0x00000000#32
abbrev oneW : EReal := Ideal.ofBits .f32 0x3F800000#32

/-- Edge e's destination word. -/
def dstWord (ei : IVec SEI 32) (e : Fin 1600000) : BitVec 32 := ei (ix2 (1 : Fin 2) e)

/-- Edge e's source word, a negative one moved up by the number of nodes. -/
def srcWord (ei : IVec SEI 32) (e : Fin 1600000) : BitVec 32 :=
  Scalar.select (IntOp.cmpi .slt (ei (ix2 (0 : Fin 2) e)) 0#32) (IntOp.addi (ei (ix2 (0 : Fin 2) e)) 100000#32)
    (ei (ix2 (0 : Fin 2) e))

/-- The destination words as a column, one row per edge. -/
def dstCol (ei : IVec SEI 32) : IVec SE1 32 := fun j => dstWord ei (j 0)

/-- The source words as a column, one row per edge. -/
def srcCol (ei : IVec SEI 32) : IVec SE1 32 := fun j => srcWord ei (j 0)

/-- The edges landing on node p. -/
def lands (ei : IVec SEI 32) (p : Fin 100000) : Finset (Fin 1600000) :=
  univ.filter (fun e => (dstWord ei e).toInt = (p.val : Int))

/-- The row edge e reads. -/
def reads (ei : IVec SEI 32) (e : Fin 1600000) : Fin 100000 := clampRow 100000 (by norm_num) (srcCol ei) e

/-- A node's degree, its own loop counted. -/
def deg (ei : IVec SEI 32) (p : Fin 100000) : EReal := (zeroW + ∑ _e ∈ lands ei p, oneW) + oneW

/-- The normalising factor of a node. -/
def dinv (ei : IVec SEI 32) (p : Fin 100000) : EReal := Ideal.rsqrt (deg ei p)

/-- The linear layer: the inputs against the upper half of the weights plus the state against the lower half. -/
def lin (x hs : FVec Ideal SNC .f32) (W : FVec Ideal SW .f32) (p : Fin 100000) (q : Fin 128) : EReal :=
  ∑ k : Fin 128, x (ix2 p k) * W (ix2 (⟨k.val, by omega⟩ : Fin 256) q)
    + ∑ k : Fin 128, hs (ix2 p k) * W (ix2 (⟨128 + k.val, by omega⟩ : Fin 256) q)

/-- The linear layer scaled by the node's factor. -/
def scaled (x hs : FVec Ideal SNC .f32) (W : FVec Ideal SW .f32) (ei : IVec SEI 32) (p : Fin 100000) (q : Fin 128) : EReal :=
  lin x hs W p q * dinv ei p

/-- The scaled rows of a node's in-neighbours, summed. -/
def gathered (x hs : FVec Ideal SNC .f32) (W : FVec Ideal SW .f32) (ei : IVec SEI 32) (p : Fin 100000) (q : Fin 128) : EReal :=
  zeroW + ∑ e ∈ lands ei p, scaled x hs W ei (reads ei e) q

/-- What the logistic function is applied to. -/
def pre (x hs : FVec Ideal SNC .f32) (W : FVec Ideal SW .f32) (bias : FVec Ideal SB .f32) (b : FVec Ideal SNC .f32)
    (ei : IVec SEI 32) (p : Fin 100000) (q : Fin 128) : EReal :=
  (b (ix2 p q) + dinv ei p * (gathered x hs W ei p q + scaled x hs W ei p q)) + bias (ix1 q)

/-- The new hidden state. -/
def hidden (x hs : FVec Ideal SNC .f32) (W : FVec Ideal SW .f32) (bias : FVec Ideal SB .f32) (b : FVec Ideal SNC .f32)
    (ei : IVec SEI 32) (p : Fin 100000) (q : Fin 128) : EReal :=
  Ideal.logistic (pre x hs W bias b ei p q)

/-- The output. -/
def out (x hs : FVec Ideal SNC .f32) (W : FVec Ideal SW .f32) (bias : FVec Ideal SB .f32) (b : FVec Ideal SNC .f32)
    (V : FVec Ideal SV .f32) (c : FVec Ideal SNC .f32) (ei : IVec SEI 32) (p : Fin 100000) (q : Fin 128) : EReal :=
  c (ix2 p q) + ∑ k : Fin 128, hidden x hs W bias b ei p k * V (ix2 k q)

/-- The new hidden state as an array. -/
def hiddenArr (x hs : FVec Ideal SNC .f32) (W : FVec Ideal SW .f32) (bias : FVec Ideal SB .f32) (b : FVec Ideal SNC .f32)
    (ei : IVec SEI 32) : FVec Ideal SNC .f32 := fun i => hidden x hs W bias b ei (i 0) (i 1)

/-- The output as an array. -/
def outArr (x hs : FVec Ideal SNC .f32) (W : FVec Ideal SW .f32) (bias : FVec Ideal SB .f32) (b : FVec Ideal SNC .f32)
    (V : FVec Ideal SV .f32) (c : FVec Ideal SNC .f32) (ei : IVec SEI 32) : FVec Ideal SNC .f32 :=
  fun i => out x hs W bias b V c ei (i 0) (i 1)

end Cert.Gcn

end
-- ==== Proof.LibScatterAddReindex.lean ====
/-
  The accumulating scatter on the extended reals, read at an index and carried across a re-indexing of the updates.

  At the ideal instance the host's scatter with an `add` body gives, at operand index `i`, the operand's element plus
  the sum of the update elements whose result index is `i` (start index plus window coordinate on every axis, when that
  is inside the operand). Two such scatters over ONE index array, with different layouts of operand and updates (for
  instance one the transpose of the other), agree at a pair of operand indices `i`, `i'` as soon as the operands agree
  there and a bijection of the update indices carries the updates landing on `i` onto the updates landing on `i'`, with
  equal update elements: the two sums are one sum, re-indexed.
-/
import Idealize.ShloMosaic.PureOps.Ideal
import Idealize.ShloMosaic.PureOps.Contract

namespace Cert.Lib

open Idealize.ShloMosaic

variable {w : Nat} {s si u : Shape}

/-- An update index lands at `i` exactly when its start plus window coordinate is, on every operand axis, the
    coordinate of `i`. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split
  · next h =>
    constructor
    · intro e a
      have e' := congrFun (Option.some.inj e) a
      have hv : (d.start j idx a + (d.window j a : Int)).toNat = (i a).val := congrArg Fin.val e'
      rw [← hv]; exact (Int.toNat_of_nonneg (h a).1).symm
    · intro e
      congr 1
      funext a
      apply Fin.ext
      show (d.start j idx a + (d.window j a : Int)).toNat = (i a).val
      rw [e a]; exact Int.toNat_natCast _
  · next h =>
    constructor
    · intro e; cases e
    · intro e
      exact absurd (fun a => by rw [e a]; exact ⟨Int.natCast_nonneg _, by exact_mod_cast (i a).isLt⟩) h

/-- The host's accumulating scatter at the ideal instance is the exact sum. -/
theorem hostScatterAdd_ideal {φ : FTy} (d : ScatterDims s si u) (x : FVec Ideal s φ) (idx : IVec si w) (upd : FVec Ideal u φ) :
    Host.scatterAdd (F := Ideal) d x idx upd = Ideal.hostScatterAdd d x idx upd := rfl

/-- TWO LAYOUTS OF ONE ACCUMULATION. Operands that agree at `i` / `i'`, and a bijection `e` of the update indices under
    which landing on `i` is landing on `i'` and the update elements correspond: the two scatters agree at `i` / `i'`. -/
theorem hostScatterAdd_reindex {s' u' : Shape} (d : ScatterDims s si u) (d' : ScatterDims s' si u')
    (x : s.Idx → EReal) (x' : s'.Idx → EReal) (idx : IVec si w) (upd : u.Idx → EReal) (upd' : u'.Idx → EReal)
    (e : u.Idx ≃ u'.Idx) (i : s.Idx) (i' : s'.Idx)
    (hx : x i = x' i') (hupd : ∀ j, upd j = upd' (e j))
    (hres : ∀ j, d.resultIdx? j idx = some i ↔ d'.resultIdx? (e j) idx = some i') :
    Ideal.hostScatterAdd d x idx upd i = Ideal.hostScatterAdd d' x' idx upd' i' := by
  unfold Ideal.hostScatterAdd
  rw [hx]
  congr 1
  exact Finset.sum_equiv e
    (fun j => by simp only [Finset.mem_filter, Finset.mem_univ, true_and]; exact hres j) (fun j _ => hupd j)

end Cert.Lib
-- ==== Proof.LibScatterRowsCols.lean ====
/-
  Where an update lands, for the two layouts of a scatter along one axis of a matrix.

  ROWS: operand [N, C], M scalar indices given as an [M, 1] array, updates [M, C]: update (r, c) lands at (idx r, c).
  COLUMNS: operand [C, N], the same indices, updates [C, M]: update (c, r) lands at (c, idx r).
  In both the index word is read signed and is not clamped: an update whose index is negative or at least N is dropped.
  So the accumulating scatter by rows, read at (p, c), and by columns, read at (c, p), of updates that are transposes
  of each other onto operands that agree there, are the same number on the extended reals.
-/
import Idealize.ShloMosaic.Lib.ValueIdx
import proofs.«131673_j33354716021156_2_alg».proof.Proof.LibScatterAddReindex

namespace Cert.Lib

open Idealize.ShloMosaic Idealize.ShloMosaic.ValueIdx

variable {N M C w : Nat}

/-- The dimension numbers of a scatter of whole rows: the update's axis 1 is the window, the operand's axis 0 is
    inserted and is the one the index names, the index vector lies along axis 1 of the index array. -/
structure IsRowScatter (d : ScatterDims ⟨2, ![N, C]⟩ ⟨2, ![M, 1]⟩ ⟨2, ![M, C]⟩) : Prop where
  uw : d.updateWindowDims = [1]
  iw : d.insertedWindowDims = [0]
  sd : d.scatterDimsToOperandDims = [0]
  iv : d.indexVectorDim = 1

/-- The dimension numbers of a scatter of whole columns: the update's axis 0 is the window, the operand's axis 1 is
    inserted and is the one the index names. -/
structure IsColScatter (d : ScatterDims ⟨2, ![C, N]⟩ ⟨2, ![M, 1]⟩ ⟨2, ![C, M]⟩) : Prop where
  uw : d.updateWindowDims = [0]
  iw : d.insertedWindowDims = [1]
  sd : d.scatterDimsToOperandDims = [1]
  iv : d.indexVectorDim = 1

private theorem mem00 : (0 : Fin 2) ∈ ([0] : List (Fin 2)) := by decide
private theorem mem10 : (1 : Fin 2) ∉ ([0] : List (Fin 2)) := by decide
private theorem mem11 : (1 : Fin 2) ∈ ([1] : List (Fin 2)) := by decide
private theorem mem01 : (0 : Fin 2) ∉ ([1] : List (Fin 2)) := by decide
private theorem kept0_1 : (1 : Fin 2) ∈ (List.finRange 2).filter (· ∉ ([0] : List (Fin 2))) := by decide
private theorem kept0_0 : (0 : Fin 2) ∉ (List.finRange 2).filter (· ∉ ([0] : List (Fin 2))) := by decide
private theorem kept1_0 : (0 : Fin 2) ∈ (List.finRange 2).filter (· ∉ ([1] : List (Fin 2))) := by decide
private theorem kept1_1 : (1 : Fin 2) ∉ (List.finRange 2).filter (· ∉ ([1] : List (Fin 2))) := by decide

/-- On the axis the index names, the window starts at the index word of the update's row, read signed. -/
theorem row_start_scat (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem00 ha

/-- On the other axis it starts at zero. -/
theorem row_start_win (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) :
    d.start j idx 1 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem10
  · rfl

/-- The window has no extent along the axis the index names. -/
theorem row_window_scat (d : ScatterDims ⟨2, ![N, C]⟩ ⟨2, ![M, 1]⟩ ⟨2, ![M, C]⟩) (hd : IsRowScatter d)
    (j : (⟨2, ![M, C]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept0_0
  · rfl

/-- Along the other axis the window coordinate is the update's. -/
theorem row_window_win (d : ScatterDims ⟨2, ![N, C]⟩ ⟨2, ![M, 1]⟩ ⟨2, ![M, C]⟩) (hd : IsRowScatter d)
    (j : (⟨2, ![M, C]⟩ : Shape).Idx) : d.window j 1 = (j 1).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept0_1 ha

/-- Update (r, c) of a row scatter lands at (idx r, c). -/
theorem row_resultIdx? (d : ScatterDims ⟨2, ![N, C]⟩ ⟨2, ![M, 1]⟩ ⟨2, ![M, C]⟩) (hd : IsRowScatter d)
    (j : (⟨2, ![M, C]⟩ : Shape).Idx) (idx : IVec ⟨2, ![M, 1]⟩ w) (i : (⟨2, ![N, C]⟩ : Shape).Idx) :
    d.resultIdx? j idx = some i ↔
      (idx (ix2 (j 0) (0 : Fin 1))).toInt = ((i 0).val : Int) ∧ (j 1).val = (i 1).val := by
  rw [resultIdx?_eq_some_iff]
  constructor
  · intro H
    have Ha := H 0
    have Hb := H 1
    rw [row_start_scat d hd, row_window_scat d hd] at Ha
    rw [row_start_win d hd, row_window_win d hd] at Hb
    exact ⟨by simpa using Ha, by exact_mod_cast (by simpa using Hb : ((j 1).val : Int) = ((i 1).val : Int))⟩
  · rintro ⟨Ha, Hb⟩ x
    have ea : d.start j idx 0 + (d.window j 0 : Int) = ((i 0).val : Int) := by
      rw [row_start_scat d hd, row_window_scat d hd, Ha]; simp
    have eb : d.start j idx 1 + (d.window j 1 : Int) = ((i 1).val : Int) := by
      rw [row_start_win d hd, row_window_win d hd, Hb]; simp
    match x with
    | ⟨0, _⟩ => exact ea
    | ⟨1, _⟩ => exact eb

/-- On the axis the index names, the window starts at the index word of the update's column, read signed. -/
theorem col_start_scat (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 1 = (idx (ix2 (j 1) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd mem11 ha

/-- On the other axis it starts at zero. -/
theorem col_start_win (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) :
    d.start j idx 0 = 0 := by
  obtain ⟨uw, iw, sd, iv, wf⟩ := d
  obtain ⟨h1, h2, h3, h4⟩ := hd
  dsimp only at h1 h2 h3 h4
  subst h1 h2 h3 h4
  unfold ScatterDims.start
  split
  · next ha => exact absurd ha mem01
  · rfl

/-- The window has no extent along the axis the index names. -/
theorem col_window_scat (d : ScatterDims ⟨2, ![C, N]⟩ ⟨2, ![M, 1]⟩ ⟨2, ![C, M]⟩) (hd : IsColScatter d)
    (j : (⟨2, ![C, M]⟩ : Shape).Idx) : d.window j 1 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha kept1_1
  · rfl

/-- Along the other axis the window coordinate is the update's. -/
theorem col_window_win (d : ScatterDims ⟨2, ![C, N]⟩ ⟨2, ![M, 1]⟩ ⟨2, ![C, M]⟩) (hd : IsColScatter d)
    (j : (⟨2, ![C, M]⟩ : Shape).Idx) : d.window j 0 = (j 0).val := by
  obtain ⟨uw, iw, sd, iv, wf⟩ := d
  obtain ⟨h1, h2, h3, h4⟩ := hd
  dsimp only at h1 h2 h3 h4
  subst h1 h2 h3 h4
  unfold ScatterDims.window
  split
  · rfl
  · next ha => exact absurd kept1_0 ha

/-- Update (c, r) of a column scatter lands at (c, idx r). -/
theorem col_resultIdx? (d : ScatterDims ⟨2, ![C, N]⟩ ⟨2, ![M, 1]⟩ ⟨2, ![C, M]⟩) (hd : IsColScatter d)
    (j : (⟨2, ![C, M]⟩ : Shape).Idx) (idx : IVec ⟨2, ![M, 1]⟩ w) (i : (⟨2, ![C, N]⟩ : Shape).Idx) :
    d.resultIdx? j idx = some i ↔
      (idx (ix2 (j 1) (0 : Fin 1))).toInt = ((i 1).val : Int) ∧ (j 0).val = (i 0).val := by
  rw [resultIdx?_eq_some_iff]
  constructor
  · intro H
    have Ha := H 1
    have Hb := H 0
    rw [col_start_scat d hd, col_window_scat d hd] at Ha
    rw [col_start_win d hd, col_window_win d hd] at Hb
    exact ⟨by simpa using Ha, by exact_mod_cast (by simpa using Hb : ((j 0).val : Int) = ((i 0).val : Int))⟩
  · rintro ⟨Ha, Hb⟩ x
    have ea : d.start j idx 1 + (d.window j 1 : Int) = ((i 1).val : Int) := by
      rw [col_start_scat d hd, col_window_scat d hd, Ha]; simp
    have eb : d.start j idx 0 + (d.window j 0 : Int) = ((i 0).val : Int) := by
      rw [col_start_win d hd, col_window_win d hd, Hb]; simp
    match x with
    | ⟨1, _⟩ => exact ea
    | ⟨0, _⟩ => exact eb

/-- The transposition of update indices, [A, B] ↔ [B, A]. -/
def swapIdx (A B : Nat) : (⟨2, ![A, B]⟩ : Shape).Idx ≃ (⟨2, ![B, A]⟩ : Shape).Idx where
  toFun j := ix2 (j 1) (j 0)
  invFun j := ix2 (j 1) (j 0)
  left_inv j := (eq_ix2 j).symm
  right_inv j := (eq_ix2 j).symm

/-- ROWS AGAINST COLUMNS: the accumulating scatter of the rows `upd` read at (p, c) is the accumulating scatter of the
    columns `upd'` read at (c, p), the updates transposes of each other and the operands equal there. -/
theorem scatterAdd_rows_eq_cols (d : ScatterDims ⟨2, ![N, C]⟩ ⟨2, ![M, 1]⟩ ⟨2, ![M, C]⟩) (hd : IsRowScatter d)
    (d' : ScatterDims ⟨2, ![C, N]⟩ ⟨2, ![M, 1]⟩ ⟨2, ![C, M]⟩) (hd' : IsColScatter d')
    (x : (⟨2, ![N, C]⟩ : Shape).Idx → EReal) (x' : (⟨2, ![C, N]⟩ : Shape).Idx → EReal) (idx : IVec ⟨2, ![M, 1]⟩ w)
    (upd : (⟨2, ![M, C]⟩ : Shape).Idx → EReal) (upd' : (⟨2, ![C, M]⟩ : Shape).Idx → EReal)
    (p : Fin N) (c : Fin C) (hx : x (ix2 p c) = x' (ix2 c p))
    (hupd : ∀ (r : Fin M) (c : Fin C), upd (ix2 r c) = upd' (ix2 c r)) :
    Ideal.hostScatterAdd d x idx upd (ix2 p c) = Ideal.hostScatterAdd d' x' idx upd' (ix2 c p) := by
  refine hostScatterAdd_reindex d d' x x' idx upd upd' (swapIdx M C) (ix2 p c) (ix2 c p) hx ?_ ?_
  · intro j
    rw [eq_ix2 j]
    exact hupd (j 0) (j 1)
  · intro j
    rw [row_resultIdx? d hd, col_resultIdx? d' hd']
    exact Iff.rfl

end Cert.Lib
-- ==== Proof.LibScatterVec.lean ====
/-
  Where an update lands, for a scatter of scalars into a vector.

  Operand [N], M scalar indices given as an [M, 1] array, updates [M]: update r lands at idx r. The index word is read
  signed and is not clamped: an update whose index is negative or at least N is dropped.
-/
import Idealize.ShloMosaic.Lib.ValueIdx
import proofs.«131673_j33354716021156_2_alg».proof.Proof.LibScatterAddReindex

namespace Cert.Lib

open Idealize.ShloMosaic Idealize.ShloMosaic.ValueIdx

variable {N M w : Nat}

/-- The dimension numbers of a scatter of scalars into a vector: no window axis in the updates, the operand's one axis
    inserted and named by the index, the index vector along axis 1 of the index array. -/
structure IsVecScatter (d : ScatterDims ⟨1, ![N]⟩ ⟨2, ![M, 1]⟩ ⟨1, ![M]⟩) : Prop where
  uw : d.updateWindowDims = []
  iw : d.insertedWindowDims = [0]
  sd : d.scatterDimsToOperandDims = [0]
  iv : d.indexVectorDim = 1

private theorem vmem00 : (0 : Fin 1) ∈ ([0] : List (Fin 1)) := by decide
private theorem vkept0 : (0 : Fin 1) ∉ (List.finRange 1).filter (· ∉ ([0] : List (Fin 1))) := by decide

/-- The window starts at the index word of the update, read signed. -/
theorem vec_start (d : ScatterDims ⟨1, ![N]⟩ ⟨2, ![M, 1]⟩ ⟨1, ![M]⟩) (hd : IsVecScatter d)
    (j : (⟨1, ![M]⟩ : Shape).Idx) (idx : IVec ⟨2, ![M, 1]⟩ w) :
    d.start j idx 0 = (idx (ix2 (j 0) (0 : Fin 1))).toInt := by
  obtain ⟨uw, iw, sd, iv, wf⟩ := d
  obtain ⟨h1, h2, h3, h4⟩ := hd
  dsimp only at h1 h2 h3 h4
  subst h1 h2 h3 h4
  unfold ScatterDims.start
  split
  · congr 2
    funext b
    match b with
    | ⟨0, _⟩ => rfl
    | ⟨1, _⟩ => rfl
  · next ha => exact absurd vmem00 ha

/-- The window has no extent. -/
theorem vec_window (d : ScatterDims ⟨1, ![N]⟩ ⟨2, ![M, 1]⟩ ⟨1, ![M]⟩) (hd : IsVecScatter d)
    (j : (⟨1, ![M]⟩ : Shape).Idx) : d.window j 0 = 0 := by
  obtain ⟨uw, iw, sd, iv, wf⟩ := d
  obtain ⟨h1, h2, h3, h4⟩ := hd
  dsimp only at h1 h2 h3 h4
  subst h1 h2 h3 h4
  unfold ScatterDims.window
  split
  · next ha => exact absurd ha vkept0
  · rfl

/-- Update r of a scatter of scalars lands at idx r. -/
theorem vec_resultIdx? (d : ScatterDims ⟨1, ![N]⟩ ⟨2, ![M, 1]⟩ ⟨1, ![M]⟩) (hd : IsVecScatter d)
    (j : (⟨1, ![M]⟩ : Shape).Idx) (idx : IVec ⟨2, ![M, 1]⟩ w) (i : (⟨1, ![N]⟩ : Shape).Idx) :
    d.resultIdx? j idx = some i ↔ (idx (ix2 (j 0) (0 : Fin 1))).toInt = ((i 0).val : Int) := by
  rw [resultIdx?_eq_some_iff]
  constructor
  · intro H
    have Ha := H 0
    rw [vec_start d hd, vec_window d hd] at Ha
    simpa using Ha
  · intro Ha x
    have ea : d.start j idx 0 + (d.window j 0 : Int) = ((i 0).val : Int) := by
      rw [vec_start d hd, vec_window d hd, Ha]; simp
    match x with
    | ⟨0, _⟩ => exact ea

end Cert.Lib
-- ==== Proof.LibScatterSum.lean ====
/-
  The accumulating scatter of whole rows, and of scalars into a vector, read at an entry as a sum over the update rows.

  For an index array with one index per update row, the entry (p, q) of a row scatter-add is the operand's entry plus
  the sum, over the update rows whose index word read signed is p, of the update's entry in column q; the entry p of a
  scatter-add of scalars is the operand's entry plus the sum of the updates whose index word is p. Rows whose index is
  negative or past the operand's last row match no p and contribute nothing.
-/
import proofs.«131673_j33354716021156_2_alg».proof.Proof.LibScatterRowsCols
import proofs.«131673_j33354716021156_2_alg».proof.Proof.LibScatterVec

namespace Cert.Lib

open Idealize.ShloMosaic Idealize.ShloMosaic.ValueIdx Finset

variable {N M C w : Nat}

/-- The row and the column of an entry of an [M, C] array, as numbers below M and C. -/
def rowOf (j : (⟨2, ![M, C]⟩ : Shape).Idx) : Fin M := j 0
def colOf (j : (⟨2, ![M, C]⟩ : Shape).Idx) : Fin C := j 1
/-- The position of an entry of an [M] array, as a number below M. -/
def posOf (j : (⟨1, ![M]⟩ : Shape).Idx) : Fin M := j 0

/-- A sum over the entries of an [M, C] array that lie in column q and whose row satisfies P is the sum over those rows. -/
theorem sum_rows_filter {A : Type*} [AddCommMonoid A] (P : Fin M → Prop) [DecidablePred P] (q : Fin C)
    (f : (⟨2, ![M, C]⟩ : Shape).Idx → A) :
    ∑ j ∈ univ.filter (fun j : (⟨2, ![M, C]⟩ : Shape).Idx => P (rowOf j) ∧ (colOf j).val = q.val), f j
      = ∑ r ∈ univ.filter P, f (ix2 r q) := by
  symm
  refine Finset.sum_bij' (fun r _ => ix2 r q) (fun j _ => rowOf j) ?_ ?_ ?_ ?_ ?_
  · intro r hr
    simp only [mem_filter, mem_univ, true_and] at hr ⊢
    exact ⟨hr, rfl⟩
  · intro j hj
    simp only [mem_filter, mem_univ, true_and] at hj ⊢
    exact hj.1
  · intro r _; rfl
  · intro j hj
    simp only [mem_filter, mem_univ, true_and] at hj
    have e : colOf j = q := Fin.ext hj.2
    rw [← e]
    exact (eq_ix2 j).symm
  · intro r _; rfl

/-- A sum over the entries of an [M] array whose position satisfies P is the sum over those positions. -/
theorem sum_entries_filter {A : Type*} [AddCommMonoid A] (P : Fin M → Prop) [DecidablePred P]
    (f : (⟨1, ![M]⟩ : Shape).Idx → A) :
    ∑ j ∈ univ.filter (fun j : (⟨1, ![M]⟩ : Shape).Idx => P (posOf j)), f j = ∑ r ∈ univ.filter P, f (ix1 r) := by
  symm
  refine Finset.sum_bij' (fun r _ => ix1 r) (fun j _ => posOf j) ?_ ?_ ?_ ?_ ?_
  · intro r hr
    simp only [mem_filter, mem_univ, true_and] at hr ⊢
    exact hr
  · intro j hj
    simp only [mem_filter, mem_univ, true_and] at hj ⊢
    exact hj
  · intro r _; rfl
  · intro j _; exact (eq_ix1 j).symm
  · intro r _; rfl

/-- A row scatter-add at the ideal instance, read at (p, q). -/
theorem rowScatterAdd_apply {φ : FTy} (d : ScatterDims ⟨2, ![N, C]⟩ ⟨2, ![M, 1]⟩ ⟨2, ![M, C]⟩) (hd : IsRowScatter d)
    (x : FVec Ideal ⟨2, ![N, C]⟩ φ) (idx : IVec ⟨2, ![M, 1]⟩ w) (upd : FVec Ideal ⟨2, ![M, C]⟩ φ) (p : Fin N) (q : Fin C) :
    Host.scatterAdd (F := Ideal) d x idx upd (ix2 p q)
      = x (ix2 p q) + ∑ r ∈ univ.filter (fun r : Fin M => (idx (ix2 r (0 : Fin 1))).toInt = (p.val : Int)), upd (ix2 r q) := by
  rw [hostScatterAdd_ideal]
  unfold Ideal.hostScatterAdd
  congr 1
  rw [← sum_rows_filter (fun r : Fin M => (idx (ix2 r (0 : Fin 1))).toInt = (p.val : Int)) q upd]
  refine Finset.sum_congr ?_ (fun _ _ => rfl)
  ext j
  simp only [mem_filter, mem_univ, true_and]
  exact row_resultIdx? d hd j idx (ix2 p q)

/-- A scatter-add of scalars into a vector at the ideal instance, read at p. -/
theorem vecScatterAdd_apply {φ : FTy} (d : ScatterDims ⟨1, ![N]⟩ ⟨2, ![M, 1]⟩ ⟨1, ![M]⟩) (hd : IsVecScatter d)
    (x : FVec Ideal ⟨1, ![N]⟩ φ) (idx : IVec ⟨2, ![M, 1]⟩ w) (upd : FVec Ideal ⟨1, ![M]⟩ φ) (p : Fin N) :
    Host.scatterAdd (F := Ideal) d x idx upd (ix1 p)
      = x (ix1 p) + ∑ r ∈ univ.filter (fun r : Fin M => (idx (ix2 r (0 : Fin 1))).toInt = (p.val : Int)), upd (ix1 r) := by
  rw [hostScatterAdd_ideal]
  unfold Ideal.hostScatterAdd
  congr 1
  rw [← sum_entries_filter (fun r : Fin M => (idx (ix2 r (0 : Fin 1))).toInt = (p.val : Int)) upd]
  refine Finset.sum_congr ?_ (fun _ _ => rfl)
  ext j
  simp only [mem_filter, mem_univ, true_and]
  exact vec_resultIdx? d hd j idx (ix1 p)

end Cert.Lib
-- ==== Proof.LibColInDim.lean ====
/-
  Two host broadcasts around a unit column, read at an entry: a vector stood up as one column
  (`broadcast_in_dim` with dims [0], [a] to [a, 1]) and one column stretched over b columns (dims [0, 1], [a, 1] to [a, b]).
-/
import Idealize.ShloMosaic.Lib.Pipeline.Value
import Idealize.ShloMosaic.Lib.ValueIdx

namespace Cert.LibColInDim

open Idealize.ShloMosaic Idealize.ShloMosaic.ValueIdx

variable {α : Type}

/-- An [a] array broadcast to [a, 1] along dims [0] reads, at (p, u), the operand at p. -/
theorem bcast_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An [a, 1] array broadcast to [a, b] along dims [0, 1] reads, at (p, q), the operand's one column at row p. -/
theorem bcast_a1_ab_apply {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

end Cert.LibColInDim
-- ==== Proof.LibHostRead.lean ====
/-
  Two host idioms read at an index, at the ideal instance.

  `splat_at`     a scalar float constant broadcast to any shape (`broadcast_in_dim` with no dimensions), read at
                 an index: the extended real the constant's word denotes, whatever the index;
  `hostDivf_at`  the host's quotient of two arrays, read at an index: the quotient of the two entries.

  Both keep a later unification from having to open a constant's word or a broadcast: after rewriting with
  them a goal mentions the word and the two entries, nothing else.
-/
import Idealize.ShloMosaic.PureOps.Ideal.Laws
import Idealize.ShloMosaic.Lib.ValueIdx
import Idealize.ShloMosaic.Lib.Pipeline.Value

noncomputable section

namespace Idealize.ShloMosaic.HostRead

open Idealize.ShloMosaic Idealize.ShloMosaic.ValueIdx

/-- A constant splat to any shape, read at an index: the constant's word. -/
theorem splat_at {t : Shape} (h : (⟨0, ![]⟩ : Shape).BroadcastsInDim t ![]) (w : BitVec 32) (j : t.Idx) :
    broadcastInDim t ![] h (constant (F := Ideal) ⟨0, ![]⟩ .f32 w) j = Ideal.ofBits .f32 w := by
  rw [broadcastInDim_apply ![] h _ j ix0 (fun a => a.elim0), constant_apply]

/-- The host's quotient of two arrays, read at an index. -/
theorem hostDivf_at {s : Shape} {φ : FTy} (a b : FVec Ideal s φ) (i : s.Idx) :
    Host.divf a b i = Ideal.div (a i) (b i) := rfl

end Idealize.ShloMosaic.HostRead

end
-- ==== Proof.KernelHost.lean ====
/-
  The host operations around the two grids, read at an entry.

  From the [2, 1600000] edge list the program cuts row 1 (the destinations) and row 0 (the sources) and stands each up
  as a column of index words, the sources first moved up by 100000 where negative. The degree is the scatter-add of
  ones onto the destinations, started from zeros, plus one; the factor column is its reciprocal square root stood up
  as a column. Between the grids the scaled rows are gathered by source and scatter-added onto the destinations,
  started from zeros. Each of these, read at an entry, is the specification's word for it.
-/
import proofs.«131673_j33354716021156_2_alg».proof.Proof.KernelRegion0
import proofs.«131673_j33354716021156_2_alg».proof.Proof.GcnSpec
import proofs.«131673_j33354716021156_2_alg».proof.Proof.LibScatterSum
import proofs.«131673_j33354716021156_2_alg».proof.Proof.LibGatherRows
import proofs.«131673_j33354716021156_2_alg».proof.Proof.LibColInDim
import proofs.«131673_j33354716021156_2_alg».proof.Proof.LibHostRead
import Idealize.ShloMosaic.Lib.ValueLayout

set_option maxRecDepth 16384

noncomputable section

namespace Cert.KernelIdeal.KVal

open Idealize.ShloMosaic Idealize.ShloMosaic.TcCoe Idealize.ShloMosaic.ValueIdx Idealize.SL.Sem Finset
open Cert.KernelIdeal Cert.KernelIdeal.Gen Cert.Lib

/-! ## The scatters' and the gather's dimension numbers -/

theorem vecScatterK : IsVecScatter scatter_S100000_S1600000x1_S1600000_n_0_0_1 := ⟨rfl, rfl, rfl, rfl⟩
theorem rowScatterK : IsRowScatter scatter_S100000x128_S1600000x1_S1600000x128_1_0_0_1 := ⟨rfl, rfl, rfl, rfl⟩
theorem rowGatherK : IsRowGather gather_S100000x128_S1600000x1_S1600000x128_1_0_n_n_0_1_1128 := ⟨rfl, rfl, rfl, rfl, rfl, rfl, rfl⟩

/-- A splat integer constant read at an index is the constant's word. -/
theorem splatI_at {t : Shape} (h : (⟨0, ![]⟩ : Shape).BroadcastsInDim t ![]) (w : BitVec 32) (j : t.Idx) :
    broadcastInDim t ![] h (constantI ⟨0, ![]⟩ 32 w) j = w := by
  rw [broadcastInDim_apply ![] h _ j ix0 (fun a => a.elim0), constantI_apply]

variable (ei : IVec S2x1600000 32)

/-! ## The index columns -/

/-- The destinations: row 1 of the edge list as a vector. -/
def dstVec : IVec S1600000 32 :=
  shapeCast S1600000 (extractStridedSlice S1x1600000 ![1, 0] ei slices_S2x1600000_S1x1600000_1_0) shapeCasts_S1x1600000_S1600000

/-- The sources: row 0 of the edge list as a vector. -/
def srcVec : IVec S1600000 32 :=
  shapeCast S1600000 (extractStridedSlice S1x1600000 ![0, 0] ei slices_S2x1600000_S1x1600000_0_0) shapeCasts_S1x1600000_S1600000

theorem dstVec_at (e : Fin 1600000) : dstVec ei (ix1 e) = Cert.Gcn.dstWord ei e := by
  unfold dstVec
  rw [shapeCast_1a_a_apply, slice2_axis0_apply 1 ei slices_S2x1600000_S1x1600000_1_0 (0 : Fin 1) e (1 : Fin 2) rfl]
  rfl

theorem srcVec_at (e : Fin 1600000) : srcVec ei (ix1 e) = ei (ix2 (0 : Fin 2) e) := by
  unfold srcVec
  rw [shapeCast_1a_a_apply, slice2_axis0_apply 0 ei slices_S2x1600000_S1x1600000_0_0 (0 : Fin 1) e (0 : Fin 2) rfl]

/-- The destinations as a column of index words. -/
def dstColK : IVec S1600000x1 32 := broadcastInDim S1600000x1 ![0] bcast_S1600000_S1600000x1_0 (dstVec ei)

/-- The sources, a negative one moved up by 100000, as a column of index words. -/
def srcColK : IVec S1600000x1 32 :=
  broadcastInDim S1600000x1 ![0] bcast_S1600000_S1600000x1_0
    (select (cmpi .slt (srcVec ei) (broadcastInDim S1600000 ![] bcast_S_S1600000 (constantI S_ 32 0#32)))
      (addi (srcVec ei) (broadcastInDim S1600000 ![] bcast_S_S1600000 (constantI S_ 32 100000#32)))
      (srcVec ei))

theorem dstColK_at (e : Fin 1600000) : dstColK ei (ix2 e (0 : Fin 1)) = Cert.Gcn.dstWord ei e := by
  unfold dstColK
  rw [Cert.LibColInDim.bcast_a_a1_apply, dstVec_at]

theorem srcColK_at (e : Fin 1600000) : srcColK ei (ix2 e (0 : Fin 1)) = Cert.Gcn.srcWord ei e := by
  unfold srcColK
  rw [Cert.LibColInDim.bcast_a_a1_apply]
  show Scalar.select (IntOp.cmpi .slt (srcVec ei (ix1 e)) (broadcastInDim S1600000 ![] bcast_S_S1600000 (constantI S_ 32 0#32) (ix1 e)))
      (IntOp.addi (srcVec ei (ix1 e)) (broadcastInDim S1600000 ![] bcast_S_S1600000 (constantI S_ 32 100000#32) (ix1 e)))
      (srcVec ei (ix1 e)) = _
  rw [splatI_at, splatI_at, srcVec_at]
  rfl

/-- The edges whose destination column word, read signed, is p are the edges landing on p. -/
theorem filter_dst (p : Fin 100000) :
    (univ.filter fun r : Fin 1600000 => (dstColK ei (ix2 r (0 : Fin 1))).toInt = (p.val : Int)) = Cert.Gcn.lands ei p := by
  unfold Cert.Gcn.lands
  exact Finset.filter_congr fun e _ => by rw [dstColK_at]

/-- The row an edge reads through the source column. -/
theorem clamp_src (e : Fin 1600000) : clampRow 100000 (by norm_num) (srcColK ei) e = Cert.Gcn.reads ei e := by
  unfold Cert.Gcn.reads
  exact clampRow_congr _ _ _ e ((srcColK_at ei e).trans rfl)

/-! ## The degree and the factor column -/

/-- The degree vector: ones scatter-added onto the destinations from zeros, plus one. -/
def degVec : FVec Ideal S100000 .f32 :=
  addf (Host.scatterAdd scatter_S100000_S1600000x1_S1600000_n_0_0_1
      (broadcastInDim S100000 ![] bcast_S_S100000 (constant (F := Ideal) S_ .f32 0x00000000#32)) (dstColK ei)
      (broadcastInDim S1600000 ![] bcast_S_S1600000 (constant (F := Ideal) S_ .f32 0x3F800000#32)))
    (broadcastInDim S100000 ![] bcast_S_S100000 (constant (F := Ideal) S_ .f32 0x3F800000#32))

theorem degVec_at (p : Fin 100000) : degVec ei (ix1 p) = Cert.Gcn.deg ei p := by
  unfold degVec Cert.Gcn.deg
  rw [addf_apply, vecScatterAdd_apply _ vecScatterK _ _ _ p, HostRead.splat_at, HostRead.splat_at, filter_dst]
  refine congrArg₂ (· + ·) (congrArg₂ (· + ·) rfl (Finset.sum_congr rfl fun r _ => ?_)) rfl
  exact HostRead.splat_at _ _ _

/-- The factor column: the degree's reciprocal square root, stood up as a column. -/
def dinvCol : FVec Ideal S100000x1 .f32 :=
  broadcastInDim S100000x1 ![0] bcast_S100000_S100000x1_0 (Host.rsqrt (degVec ei))

/-- The host's reciprocal square root of any array, at an index, is that of the entry. -/
theorem hostRsqrt_at {s : Shape} (v : FVec Ideal s .f32) (i : s.Idx) : Host.rsqrt v i = Ideal.rsqrt (v i) := rfl

theorem dinvCol_at (p : Fin 100000) : dinvCol ei (ix2 p (0 : Fin 1)) = Cert.Gcn.dinv ei p := by
  unfold dinvCol Cert.Gcn.dinv
  rw [Cert.LibColInDim.bcast_a_a1_apply, hostRsqrt_at, degVec_at]

/-! ## The scaled linear layer and the aggregation -/

/-- The two halves of the weight matrix. -/
def upperW (W : FVec Ideal S256x128 .f32) : FVec Ideal S128x128 .f32 := extractStridedSlice S128x128 ![0, 0] W slices_S256x128_S128x128_0_0
def lowerW (W : FVec Ideal S256x128 .f32) : FVec Ideal S128x128 .f32 := extractStridedSlice S128x128 ![128, 0] W slices_S256x128_S128x128_128_0

theorem upperW_at (W : FVec Ideal S256x128 .f32) (k : Fin 128) (q : Fin 128) :
    upperW W (ix2 k q) = W (ix2 (⟨k.val, by omega⟩ : Fin 256) q) :=
  slice2_axis0_apply 0 W slices_S256x128_S128x128_0_0 k q _ (by show k.val = 0 + k.val; omega)

theorem lowerW_at (W : FVec Ideal S256x128 .f32) (k : Fin 128) (q : Fin 128) :
    lowerW W (ix2 k q) = W (ix2 (⟨128 + k.val, by omega⟩ : Fin 256) q) :=
  slice2_axis0_apply 128 W slices_S256x128_S128x128_128_0 k q _ rfl

/-- The first grid's array at an entry is the specification's scaled linear layer. -/
theorem scaled_at (x hs : FVec Ideal S100000x128 .f32) (W : FVec Ideal S256x128 .f32) (n : Fin 100000) (q : Fin 128) :
    linScaledArr x hs (dinvCol ei) (upperW W) (lowerW W) (ix2 n q) = Cert.Gcn.scaled x hs W ei n q := by
  rw [linScaledArr_at, dinvCol_at]
  unfold Cert.Gcn.scaled Cert.Gcn.lin
  refine congrArg₂ (· * ·) (congrArg₂ (· + ·) (Finset.sum_congr rfl fun k _ => ?_) (Finset.sum_congr rfl fun k _ => ?_)) rfl
  · rw [upperW_at]
  · rw [lowerW_at]

/-- The aggregation between the grids: rows gathered by source, scatter-added onto the destinations from zeros. -/
def aggOf (HS : FVec Ideal S100000x128 .f32) : FVec Ideal S100000x128 .f32 :=
  Host.scatterAdd scatter_S100000x128_S1600000x1_S1600000x128_1_0_0_1
    (broadcastInDim S100000x128 ![] bcast_S_S100000x128 (constant (F := Ideal) S_ .f32 0x00000000#32)) (dstColK ei)
    (Host.gather gather_S100000x128_S1600000x1_S1600000x128_1_0_n_n_0_1_1128 HS (srcColK ei))

theorem aggOf_at (HS : FVec Ideal S100000x128 .f32) (p : Fin 100000) (q : Fin 128) :
    aggOf ei HS (ix2 p q) = Cert.Gcn.zeroW + ∑ e ∈ Cert.Gcn.lands ei p, HS (ix2 (Cert.Gcn.reads ei e) q) := by
  unfold aggOf
  rw [rowScatterAdd_apply _ rowScatterK _ _ _ p q, HostRead.splat_at, filter_dst]
  refine congrArg₂ (· + ·) rfl (Finset.sum_congr rfl fun e _ => ?_)
  rw [row_gather_apply (by norm_num) _ rowGatherK HS (srcColK ei) e q, clamp_src]

/-- The aggregation of the scaled linear layer is the specification's. -/
theorem gathered_at (x hs : FVec Ideal S100000x128 .f32) (W : FVec Ideal S256x128 .f32) (p : Fin 100000) (q : Fin 128) :
    aggOf ei (linScaledArr x hs (dinvCol ei) (upperW W) (lowerW W)) (ix2 p q) = Cert.Gcn.gathered x hs W ei p q := by
  rw [aggOf_at]
  unfold Cert.Gcn.gathered
  refine congrArg₂ (· + ·) rfl (Finset.sum_congr rfl fun e _ => ?_)
  exact scaled_at ei x hs W _ q

end Cert.KernelIdeal.KVal

end
-- ==== Proof.KernelValue.lean ====
/-
  The idealized kernel program's two results as the specification's arrays.

  The buffers' contents are followed through the four stretches. The first host stretch leaves the factor column, the
  two halves of the weight matrix and the two index vectors; the first grid leaves the scaled linear layer and keeps its
  inputs; the second host stretch leaves the aggregation and keeps the rest; the second grid leaves the new hidden state
  and the output. Entry by entry these are the specification's hidden and out.
-/
import proofs.«131673_j33354716021156_2_alg».proof.Proof.KernelRun
import proofs.«131673_j33354716021156_2_alg».proof.Proof.KernelRegion1
import proofs.«131673_j33354716021156_2_alg».proof.Proof.KernelHost

set_option maxRecDepth 16384

noncomputable section

namespace Cert.KernelIdeal.KVal

open Idealize.ShloMosaic Idealize.ShloMosaic.TcCoe Idealize.ShloMosaic.ValueIdx Idealize.SL.Sem Finset
open Idealize.ShloMosaic.StableHlo
open Idealize.ShloMosaic.Pipeline (Dat Cfg Window)
open Cert.KernelIdeal Cert.KernelIdeal.Gen Cert.Lib

/-! ## The grids' arrays in the specification's words -/

section Spec
variable (ei : IVec S2x1600000 32) (x hs : FVec Ideal S100000x128 .f32) (W : FVec Ideal S256x128 .f32)
  (bias : FVec Ideal S128 .f32) (b : FVec Ideal S100000x128 .f32) (Vm : FVec Ideal S128x128 .f32) (cm : FVec Ideal S100000x128 .f32)

/-- The second grid's hidden array, over the first grid's array and its aggregation, is the specification's. -/
theorem hiddenOf_spec :
    hiddenOf b (aggOf ei (linScaledArr x hs (dinvCol ei) (upperW W) (lowerW W))) (linScaledArr x hs (dinvCol ei) (upperW W) (lowerW W))
        (dinvCol ei) bias
      = Cert.Gcn.hiddenArr x hs W bias b ei := by
  funext i
  obtain ⟨p, q, rfl⟩ : ∃ (p : Fin 100000) (q : Fin 128), i = ix2 p q := ⟨i 0, i 1, eq_ix2 i⟩
  rw [hiddenOf_at, gathered_at, scaled_at, dinvCol_at]
  rfl

/-- The second grid's output array is the specification's. -/
theorem outOf_spec :
    outOf b (aggOf ei (linScaledArr x hs (dinvCol ei) (upperW W) (lowerW W))) (linScaledArr x hs (dinvCol ei) (upperW W) (lowerW W))
        (dinvCol ei) bias Vm cm
      = Cert.Gcn.outArr x hs W bias b Vm cm ei := by
  funext i
  obtain ⟨p, q, rfl⟩ : ∃ (p : Fin 100000) (q : Fin 128), i = ix2 p q := ⟨i 0, i 1, eq_ix2 i⟩
  rw [outOf_at, hiddenOf_spec]
  rfl

end Spec

variable (m : (ℓ : Loc nD τ sig) → Buf (Elt Ideal) ℓ) (ρ : Dev nD → PrngReg)

/-! ## After the first host stretch -/

theorem W1_v13 (c : Dev nD) : W1 m ρ c (Proc.devRef .tc main_v13) = dinvCol (m ((c : Thread nD τ).loc main_arg7)) := by
  show StableHlo.after hostOps0 (W0 m ρ c) (Proc.devRef .tc main_v13) = _
  after_results
  rfl

theorem W1_v0 (c : Dev nD) : W1 m ρ c (Proc.devRef .tc main_v0) = upperW (m ((c : Thread nD τ).loc main_arg2)) := by
  show StableHlo.after hostOps0 (W0 m ρ c) (Proc.devRef .tc main_v0) = _
  after_results
  rfl

theorem W1_v1 (c : Dev nD) : W1 m ρ c (Proc.devRef .tc main_v1) = lowerW (m ((c : Thread nD τ).loc main_arg2)) := by
  show StableHlo.after hostOps0 (W0 m ρ c) (Proc.devRef .tc main_v1) = _
  after_results
  rfl

theorem W1_v5 (c : Dev nD) : W1 m ρ c (Proc.devRef .tc main_v5) = dstVec (m ((c : Thread nD τ).loc main_arg7)) := by
  show StableHlo.after hostOps0 (W0 m ρ c) (Proc.devRef .tc main_v5) = _
  after_results
  rfl

theorem W1_v3 (c : Dev nD) : W1 m ρ c (Proc.devRef .tc main_v3) = srcVec (m ((c : Thread nD τ).loc main_arg7)) := by
  show StableHlo.after hostOps0 (W0 m ρ c) (Proc.devRef .tc main_v3) = _
  after_results
  rfl

theorem W1_arg0 (c : Dev nD) : W1 m ρ c (Proc.devRef .tc main_arg0) = (m ((c : Thread nD τ).loc main_arg0)) := by
  show StableHlo.after hostOps0 (W0 m ρ c) (Proc.devRef .tc main_arg0) = _
  after_results

theorem W1_arg1 (c : Dev nD) : W1 m ρ c (Proc.devRef .tc main_arg1) = (m ((c : Thread nD τ).loc main_arg1)) := by
  show StableHlo.after hostOps0 (W0 m ρ c) (Proc.devRef .tc main_arg1) = _
  after_results

/-! ## After the first grid -/

theorem W2_v14 (c : Dev nD) : W2 m ρ c (Proc.devRef .tc main_v14) = (linScaledArr (m ((c : Thread nD τ).loc main_arg0)) (m ((c : Thread nD τ).loc main_arg1)) (dinvCol (m ((c : Thread nD τ).loc main_arg7))) (upperW (m ((c : Thread nD τ).loc main_arg2))) (lowerW (m ((c : Thread nD τ).loc main_arg2)))) := by
  refine (W2_arr m ρ c 5).trans ((final0 (V1 m ρ) c).trans ?_)
  show linScaledArr (W1 m ρ c (Proc.devRef .tc main_arg0)) (W1 m ρ c (Proc.devRef .tc main_arg1)) (W1 m ρ c (Proc.devRef .tc main_v13))
    (W1 m ρ c (Proc.devRef .tc main_v0)) (W1 m ρ c (Proc.devRef .tc main_v1)) = _
  rw [W1_arg0, W1_arg1, W1_v13, W1_v0, W1_v1]

theorem W2_v13 (c : Dev nD) : W2 m ρ c (Proc.devRef .tc main_v13) = dinvCol (m ((c : Thread nD τ).loc main_arg7)) :=
  (W2_arr m ρ c 2).trans (((dat0 (V1 m ρ) c).arrAt_in 2 rfl _).trans ((A_eq0 (V1 m ρ) c 2).trans (W1_v13 m ρ c)))

theorem W2_v5 (c : Dev nD) : W2 m ρ c (Proc.devRef .tc main_v5) = dstVec (m ((c : Thread nD τ).loc main_arg7)) :=
  (W2_of_ne m ρ c main_v5 (by decide)).trans (W1_v5 m ρ c)

theorem W2_v3 (c : Dev nD) : W2 m ρ c (Proc.devRef .tc main_v3) = srcVec (m ((c : Thread nD τ).loc main_arg7)) :=
  (W2_of_ne m ρ c main_v3 (by decide)).trans (W1_v3 m ρ c)

/-! ## After the second host stretch -/

theorem W3_v24 (c : Dev nD) : W3 m ρ c (Proc.devRef .tc main_v24) = aggOf (m ((c : Thread nD τ).loc main_arg7)) (linScaledArr (m ((c : Thread nD τ).loc main_arg0)) (m ((c : Thread nD τ).loc main_arg1)) (dinvCol (m ((c : Thread nD τ).loc main_arg7))) (upperW (m ((c : Thread nD τ).loc main_arg2))) (lowerW (m ((c : Thread nD τ).loc main_arg2)))) := by
  show StableHlo.after hostOps1 (W2 m ρ c) (Proc.devRef .tc main_v24) = _
  after_results
  rw [W2_v5, W2_v14, W2_v3]
  rfl

theorem W3_v14 (c : Dev nD) : W3 m ρ c (Proc.devRef .tc main_v14) = (linScaledArr (m ((c : Thread nD τ).loc main_arg0)) (m ((c : Thread nD τ).loc main_arg1)) (dinvCol (m ((c : Thread nD τ).loc main_arg7))) (upperW (m ((c : Thread nD τ).loc main_arg2))) (lowerW (m ((c : Thread nD τ).loc main_arg2)))) := by
  show StableHlo.after hostOps1 (W2 m ρ c) (Proc.devRef .tc main_v14) = _
  after_results
  exact W2_v14 m ρ c

theorem W3_v13 (c : Dev nD) : W3 m ρ c (Proc.devRef .tc main_v13) = dinvCol (m ((c : Thread nD τ).loc main_arg7)) := by
  show StableHlo.after hostOps1 (W2 m ρ c) (Proc.devRef .tc main_v13) = _
  after_results
  exact W2_v13 m ρ c

/-- An input array of the second grid is found as the last stretch leaves it. -/
theorem W3_of_input (c : Dev nD) (w : Fin cfg1.W) (hw : (cfg1.win w).isOut = false) :
    V3 m ρ c (Pipeline.arrRef spec1 w) = W4 m ρ c (Proc.devRef .tc (Pipeline.arrRef spec1 w)) :=
  ((W4_arr m ρ c w).trans (((dat1 (V3 m ρ) c).arrAt_in w hw _).trans (A_eq1 (V3 m ρ) c w))).symm

theorem W3_arg4 (c : Dev nD) : W3 m ρ c (Proc.devRef .tc main_arg4) = (m ((c : Thread nD τ).loc main_arg4)) :=
  (W3_of_input m ρ c 0 rfl).trans (W4_main_arg4 m ρ c)
theorem W3_arg6 (c : Dev nD) : W3 m ρ c (Proc.devRef .tc main_arg6) = (m ((c : Thread nD τ).loc main_arg6)) :=
  (W3_of_input m ρ c 4 rfl).trans (W4_main_arg6 m ρ c)
theorem W3_arg5 (c : Dev nD) : W3 m ρ c (Proc.devRef .tc main_arg5) = (m ((c : Thread nD τ).loc main_arg5)) :=
  (W3_of_input m ρ c 5 rfl).trans (W4_main_arg5 m ρ c)
theorem W3_arg3 (c : Dev nD) : W3 m ρ c (Proc.devRef .tc main_arg3) = (m ((c : Thread nD τ).loc main_arg3)) :=
  (W3_of_input m ρ c 6 rfl).trans (W4_main_arg3 m ρ c)

/-! ## After the second grid -/

/-- The new hidden state the program ends with. -/
theorem hidden_W4 (c : Dev nD) :
    W4 m ρ c (Proc.devRef .tc main_v25_0) = Cert.Gcn.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7)) := by
  refine (W4_arr m ρ c 7).trans ((final1_7 (V3 m ρ) c).trans ?_)
  show hiddenOf (W3 m ρ c (Proc.devRef .tc main_arg4)) (W3 m ρ c (Proc.devRef .tc main_v24)) (W3 m ρ c (Proc.devRef .tc main_v14))
    (W3 m ρ c (Proc.devRef .tc main_v13)) (W3 m ρ c (Proc.devRef .tc main_arg3)) = _
  rw [W3_arg4, W3_v24, W3_v14, W3_v13, W3_arg3]
  exact hiddenOf_spec _ _ _ _ _ _

/-- The output the program ends with. -/
theorem out_W4 (c : Dev nD) :
    W4 m ρ c (Proc.devRef .tc main_v25_1) = Cert.Gcn.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W4_arr m ρ c 8).trans ((final1_8 (V3 m ρ) c).trans ?_)
  show outOf (W3 m ρ c (Proc.devRef .tc main_arg4)) (W3 m ρ c (Proc.devRef .tc main_v24)) (W3 m ρ c (Proc.devRef .tc main_v14))
    (W3 m ρ c (Proc.devRef .tc main_v13)) (W3 m ρ c (Proc.devRef .tc main_arg3)) (W3 m ρ c (Proc.devRef .tc main_arg5))
    (W3 m ρ c (Proc.devRef .tc main_arg6)) = _
  rw [W3_arg4, W3_v24, W3_v14, W3_v13, W3_arg3, W3_arg5, W3_arg6]
  exact outOf_spec _ _ _ _ _ _ _ _

/-! ## The run, read -/

/-- Every weakly fair execution of the idealized kernel program ends with the output and the new hidden state at the
    specification's arrays of the launch arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v25_1) = Cert.Gcn.outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_v25_0) = Cert.Gcn.hiddenArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (out_W4 m ρ c), (h c).2.1.trans (hidden_W4 m ρ c), (h c).2.2⟩)
    (run_results m ρ)

end Cert.KernelIdeal.KVal

end
-- ==== Proof.LibSumParts.lean ====
/-
  Sums over a range cut in two, with a filter.

  A sum over the positions below `E + N` that satisfy a predicate is the sum over the first `E` positions that satisfy
  it plus the sum over the last `N` that do. When, on the last `N`, the predicate singles out one position, that second
  sum is one term. This is how an accumulation over a list of edges followed by one loop per node is the accumulation
  over the edges plus the node's own term.
-/
import Mathlib.Algebra.BigOperators.Fin

namespace Cert.SumParts

open Finset

variable {M : Type*} [AddCommMonoid M]

/-- Position `e` of the first part, among all `T = E + N` positions. -/
def inl (E N T : ℕ) (h : E + N = T) (e : Fin E) : Fin T := ⟨e.val, by omega⟩
/-- Position `k` of the second part, among all `T = E + N` positions. -/
def inr (E N T : ℕ) (h : E + N = T) (k : Fin N) : Fin T := ⟨E + k.val, by omega⟩

@[simp] theorem inl_val (E N T : ℕ) (h : E + N = T) (e : Fin E) : (inl E N T h e).val = e.val := rfl
@[simp] theorem inr_val (E N T : ℕ) (h : E + N = T) (k : Fin N) : (inr E N T h k).val = E + k.val := rfl

/-- A filtered sum over `E + N` positions is the filtered sum over the first part plus the one over the second. -/
theorem sum_filter_split (E N T : ℕ) (h : E + N = T) (p : Fin T → Prop) [DecidablePred p] (f : Fin T → M) :
    ∑ r ∈ univ.filter p, f r
      = ∑ e ∈ (univ : Finset (Fin E)).filter (fun e => p (inl E N T h e)), f (inl E N T h e)
        + ∑ k ∈ (univ : Finset (Fin N)).filter (fun k => p (inr E N T h k)), f (inr E N T h k) := by
  subst h
  simp only [Finset.sum_filter]
  rw [Fin.sum_univ_add]
  rfl

/-- A filtered sum whose filter holds at exactly one position is the term there. -/
theorem sum_filter_single {N : ℕ} (i0 : Fin N) (q : Fin N → Prop) [DecidablePred q] (g : Fin N → M)
    (hq : ∀ k, q k ↔ k = i0) : ∑ k ∈ univ.filter q, g k = g i0 := by
  have e : univ.filter q = {i0} := by
    ext k
    simp only [mem_filter, mem_univ, true_and, mem_singleton]
    exact hq k
  rw [e, Finset.sum_singleton]

/-- EDGES THEN LOOPS. Over `E + N` positions, when the first part's filter and terms are those of a family over `E`
    and the second part's filter singles out position `i0`: the filtered sum is the family's filtered sum plus the
    term at `i0` of the second part. -/
theorem sum_filter_edges_loop (E N T : ℕ) (h : E + N = T) (p : Fin T → Prop) [DecidablePred p] (f : Fin T → M)
    (pE : Fin E → Prop) [DecidablePred pE] (fE : Fin E → M) (i0 : Fin N) (g : M)
    (hpE : ∀ e, p (inl E N T h e) ↔ pE e) (hfE : ∀ e, f (inl E N T h e) = fE e)
    (hpN : ∀ k, p (inr E N T h k) ↔ k = i0) (hg : f (inr E N T h i0) = g) :
    ∑ r ∈ univ.filter p, f r = ∑ e ∈ univ.filter pE, fE e + g := by
  rw [sum_filter_split E N T h p f, sum_filter_single i0 _ _ hpN, hg]
  congr 1
  refine Finset.sum_congr ?_ (fun e _ => hfE e)
  ext e
  simp only [mem_filter, mem_univ, true_and]
  exact hpE e

end Cert.SumParts
-- ==== Proof.RefIndex.lean ====
/-
  The index columns of the reference's aggregation, read word by word.

  The reference lists the 1600000 edges and then one loop per node: every index vector it uses has 1700000 rows, row e
  (below 1600000) belonging to edge e and row 1600000 + k to the loop of node k. Read at a row:

    the source vector        edge e: the source word of e;       loop k: the word of the number k;
    the destination vector   edge e: the destination word of e;  loop k: the word of the number k.

  Before a gather a negative word is moved up by 100000 (the "normalised" vectors). On an edge row the normalised source
  word is the specification's source word; the word of a number k below 100000 is not negative, so a loop row is left
  alone, and so is the destination word of an edge that lands on a node. Read signed and clamped, an edge row's
  normalised source names the row the edge reads, a loop row names its node, and the normalised destination of an edge
  landing on p names p.
-/
import proofs.«131673_j33354716021156_2_alg».proof.Proof.RefReadP
import proofs.«131673_j33354716021156_2_alg».proof.Proof.GcnSpec
import proofs.«131673_j33354716021156_2_alg».proof.Proof.LibSumParts

noncomputable section

namespace Cert.ReferenceIdeal.RefValue

open Cert.ReferenceIdeal Cert.ReferenceIdeal.Gen Idealize.ShloMosaic Idealize.ShloMosaic.ValueIdx Cert.SumParts Cert.Lib

theorem hT : 1600000 + 100000 = 1700000 := by norm_num

theorem hN : 0 < 100000 := by norm_num

/-- Row e of the edge part among all 1700000 rows. -/
abbrev edgeRow (e : Fin 1600000) : Fin 1700000 := inl 1600000 100000 1700000 hT e
/-- Row k of the loop part among all 1700000 rows. -/
abbrev loopRow (k : Fin 100000) : Fin 1700000 := inr 1600000 100000 1700000 hT k

/-! ## Two vectors joined end to end -/

section Concat
variable {α : Type} {n n₁ n₂ : Nat}

/-- Two vectors joined end to end, read in the first. -/
theorem concat2_vec_left (x : (⟨1, ![n₁]⟩ : Shape).Idx → α) (y : (⟨1, ![n₂]⟩ : Shape).Idx → α)
    (h : Shape.Concatenates [⟨1, ![n₁]⟩, ⟨1, ![n₂]⟩] ⟨1, ![n]⟩ 0) (j : Fin n) (q : Fin n₁) (hq : q.val = j.val) :
    concatenate ⟨1, ![n]⟩ 0 [⟨⟨1, ![n₁]⟩, x⟩, ⟨⟨1, ![n₂]⟩, y⟩] h (ix1 j) = x (ix1 q) :=
  concatenate_apply_piece (t := ⟨1, ![n]⟩) 0 [⟨⟨1, ![n₁]⟩, x⟩, ⟨⟨1, ![n₂]⟩, y⟩] h (ix1 j) 0 (by simp) _ x rfl rfl 0 rfl (ix1 q)
    (fun b hb => by
      match b with
      | ⟨0, _⟩ => exact absurd rfl hb)
    (by show 0 + q.val = j.val; omega)

/-- Two vectors joined end to end, read in the second. -/
theorem concat2_vec_right (x : (⟨1, ![n₁]⟩ : Shape).Idx → α) (y : (⟨1, ![n₂]⟩ : Shape).Idx → α)
    (h : Shape.Concatenates [⟨1, ![n₁]⟩, ⟨1, ![n₂]⟩] ⟨1, ![n]⟩ 0) (j : Fin n) (q : Fin n₂) (hq : n₁ + q.val = j.val) :
    concatenate ⟨1, ![n]⟩ 0 [⟨⟨1, ![n₁]⟩, x⟩, ⟨⟨1, ![n₂]⟩, y⟩] h (ix1 j) = y (ix1 q) :=
  concatenate_apply_piece (t := ⟨1, ![n]⟩) 0 [⟨⟨1, ![n₁]⟩, x⟩, ⟨⟨1, ![n₂]⟩, y⟩] h (ix1 j) 1 (by simp) _ y rfl rfl n₁ (by simp) (ix1 q)
    (fun b hb => by
      match b with
      | ⟨0, _⟩ => exact absurd rfl hb)
    (by show n₁ + q.val = j.val; omega)

end Concat

/-! ## Words -/

/-- The word of a number below 100000, read signed, is that number. -/
theorem iota_toInt (k : Fin 100000) : (BitVec.ofNat 32 k.val).toInt = (k.val : Int) := by
  have hk := k.isLt
  rw [BitVec.toInt_eq_toNat_cond, BitVec.toNat_ofNat]
  have e : k.val % 2 ^ 32 = k.val := Nat.mod_eq_of_lt (by omega)
  rw [e, if_pos (by omega)]

/-- A word that is not negative is not moved. -/
theorem moved_of_nonneg (w : BitVec 32) (h : 0 ≤ w.toInt) :
    Scalar.select (IntOp.cmpi .slt w 0#32) (IntOp.addi w 100000#32) w = w := by
  unfold Scalar.select IntOp.cmpi
  have : w.slt 0#32 = false := by
    rw [BitVec.slt]
    simp
    exact h
  simp [this]

variable (ei : IVec S2x1600000 32)

/-! ## The source and destination vectors -/

/-- The source row of the edge list, as a vector. -/
theorem v3_at (e : Fin 1600000) : ReadP.val_main_v3 (F := Ideal) ei (ix1 e) = ei (ix2 (0 : Fin 2) e) := by
  rw [ReadP.val_main_v3_apply, ReadP.val_main_v2_apply]
  refine congrArg ei (funext fun a => Fin.ext ?_)
  match a with
  | ⟨0, _⟩ => rfl
  | ⟨1, _⟩ => exact Nat.mod_eq_of_lt e.isLt

/-- The destination row of the edge list, as a vector. -/
theorem v7_at (e : Fin 1600000) : ReadP.val_main_v7 (F := Ideal) ei (ix1 e) = ei (ix2 (1 : Fin 2) e) := by
  rw [ReadP.val_main_v7_apply, ReadP.val_main_v6_apply]
  refine congrArg ei (funext fun a => Fin.ext ?_)
  match a with
  | ⟨0, _⟩ => rfl
  | ⟨1, _⟩ => exact Nat.mod_eq_of_lt e.isLt

theorem v5_edge (e : Fin 1600000) : ReadP.val_main_v5 (F := Ideal) ei (ix1 (edgeRow e)) = ei (ix2 (0 : Fin 2) e) :=
  (concat2_vec_left (ReadP.val_main_v3 (F := Ideal) ei) (ReadP.val_main_v4 (F := Ideal))
    concatenates_S1600000_S100000_S1700000_d0 (edgeRow e) e rfl).trans (v3_at ei e)

theorem v5_loop (k : Fin 100000) : ReadP.val_main_v5 (F := Ideal) ei (ix1 (loopRow k)) = BitVec.ofNat 32 k.val :=
  concat2_vec_right (ReadP.val_main_v3 (F := Ideal) ei) (ReadP.val_main_v4 (F := Ideal))
    concatenates_S1600000_S100000_S1700000_d0 (loopRow k) k rfl

theorem v9_edge (e : Fin 1600000) : ReadP.val_main_v9 (F := Ideal) ei (ix1 (edgeRow e)) = Cert.Gcn.dstWord ei e :=
  (concat2_vec_left (ReadP.val_main_v7 (F := Ideal) ei) (ReadP.val_main_v8 (F := Ideal))
    concatenates_S1600000_S100000_S1700000_d0 (edgeRow e) e rfl).trans (v7_at ei e)

theorem v9_loop (k : Fin 100000) : ReadP.val_main_v9 (F := Ideal) ei (ix1 (loopRow k)) = BitVec.ofNat 32 k.val :=
  concat2_vec_right (ReadP.val_main_v7 (F := Ideal) ei) (ReadP.val_main_v8 (F := Ideal))
    concatenates_S1600000_S100000_S1700000_d0 (loopRow k) k rfl

/-! ## The normalised vectors -/

theorem v22_at (r : Fin 1700000) : ReadP.val_main_v22 (F := Ideal) ei (ix1 r)
    = Scalar.select (IntOp.cmpi .slt (ReadP.val_main_v5 (F := Ideal) ei (ix1 r)) 0#32)
        (IntOp.addi (ReadP.val_main_v5 (F := Ideal) ei (ix1 r)) 100000#32) (ReadP.val_main_v5 (F := Ideal) ei (ix1 r)) := by
  rw [ReadP.val_main_v22_apply, ReadP.val_main_v19_apply, ReadP.val_main_v21_apply, ReadP.val_main_v18_apply,
    ReadP.val_main_v20_apply, ReadP.val_main_c_apply, ReadP.val_main_c_3_apply]

theorem v37_at (r : Fin 1700000) : ReadP.val_main_v37 (F := Ideal) ei (ix1 r)
    = Scalar.select (IntOp.cmpi .slt (ReadP.val_main_v5 (F := Ideal) ei (ix1 r)) 0#32)
        (IntOp.addi (ReadP.val_main_v5 (F := Ideal) ei (ix1 r)) 100000#32) (ReadP.val_main_v5 (F := Ideal) ei (ix1 r)) := by
  rw [ReadP.val_main_v37_apply, ReadP.val_main_v34_apply, ReadP.val_main_v36_apply, ReadP.val_main_v33_apply,
    ReadP.val_main_v35_apply, ReadP.val_main_c_6_apply, ReadP.val_main_c_7_apply]

theorem v29_at (r : Fin 1700000) : ReadP.val_main_v29 (F := Ideal) ei (ix1 r)
    = Scalar.select (IntOp.cmpi .slt (ReadP.val_main_v9 (F := Ideal) ei (ix1 r)) 0#32)
        (IntOp.addi (ReadP.val_main_v9 (F := Ideal) ei (ix1 r)) 100000#32) (ReadP.val_main_v9 (F := Ideal) ei (ix1 r)) := by
  rw [ReadP.val_main_v29_apply, ReadP.val_main_v26_apply, ReadP.val_main_v28_apply, ReadP.val_main_v25_apply,
    ReadP.val_main_v27_apply, ReadP.val_main_c_4_apply, ReadP.val_main_c_5_apply]

theorem v22_edge (e : Fin 1600000) : ReadP.val_main_v22 (F := Ideal) ei (ix1 (edgeRow e)) = Cert.Gcn.srcWord ei e := by
  rw [v22_at, v5_edge]; rfl

theorem v37_edge (e : Fin 1600000) : ReadP.val_main_v37 (F := Ideal) ei (ix1 (edgeRow e)) = Cert.Gcn.srcWord ei e := by
  rw [v37_at, v5_edge]; rfl

theorem v22_loop (k : Fin 100000) : ReadP.val_main_v22 (F := Ideal) ei (ix1 (loopRow k)) = BitVec.ofNat 32 k.val := by
  rw [v22_at, v5_loop]
  exact moved_of_nonneg _ (by rw [iota_toInt]; exact Int.natCast_nonneg _)

theorem v37_loop (k : Fin 100000) : ReadP.val_main_v37 (F := Ideal) ei (ix1 (loopRow k)) = BitVec.ofNat 32 k.val := by
  rw [v37_at, v5_loop]
  exact moved_of_nonneg _ (by rw [iota_toInt]; exact Int.natCast_nonneg _)

theorem v29_loop (k : Fin 100000) : ReadP.val_main_v29 (F := Ideal) ei (ix1 (loopRow k)) = BitVec.ofNat 32 k.val := by
  rw [v29_at, v9_loop]
  exact moved_of_nonneg _ (by rw [iota_toInt]; exact Int.natCast_nonneg _)

/-- The destination word of an edge that lands on a node is not moved. -/
theorem v29_edge (e : Fin 1600000) (p : Fin 100000) (he : e ∈ Cert.Gcn.lands ei p) :
    ReadP.val_main_v29 (F := Ideal) ei (ix1 (edgeRow e)) = Cert.Gcn.dstWord ei e := by
  have h : (Cert.Gcn.dstWord ei e).toInt = (p.val : Int) := (Finset.mem_filter.mp he).2
  rw [v29_at, v9_edge]
  exact moved_of_nonneg _ (by rw [h]; exact Int.natCast_nonneg _)

/-! ## The vectors stood up as columns -/

theorem v12_at (r : Fin 1700000) : ReadP.val_main_v12 (F := Ideal) ei (ix2 r (0 : Fin 1)) = ReadP.val_main_v9 (F := Ideal) ei (ix1 r) := by
  rw [ReadP.val_main_v12_apply]
  exact congrArg _ (funext fun a => by match a with | ⟨0, _⟩ => rfl)

theorem v44_at (r : Fin 1700000) : ReadP.val_main_v44 (F := Ideal) ei (ix2 r (0 : Fin 1)) = ReadP.val_main_v9 (F := Ideal) ei (ix1 r) := by
  rw [ReadP.val_main_v44_apply]
  exact congrArg _ (funext fun a => by match a with | ⟨0, _⟩ => rfl)

theorem v23_at (r : Fin 1700000) : ReadP.val_main_v23 (F := Ideal) ei (ix2 r (0 : Fin 1)) = ReadP.val_main_v22 (F := Ideal) ei (ix1 r) := by
  rw [ReadP.val_main_v23_apply]
  exact congrArg _ (funext fun a => by match a with | ⟨0, _⟩ => rfl)

theorem v30_at (r : Fin 1700000) : ReadP.val_main_v30 (F := Ideal) ei (ix2 r (0 : Fin 1)) = ReadP.val_main_v29 (F := Ideal) ei (ix1 r) := by
  rw [ReadP.val_main_v30_apply]
  exact congrArg _ (funext fun a => by match a with | ⟨0, _⟩ => rfl)

theorem v38_at (r : Fin 1700000) : ReadP.val_main_v38 (F := Ideal) ei (ix2 r (0 : Fin 1)) = ReadP.val_main_v37 (F := Ideal) ei (ix1 r) := by
  rw [ReadP.val_main_v38_apply]
  exact congrArg _ (funext fun a => by match a with | ⟨0, _⟩ => rfl)

/-! ## The rows the columns name -/

/-- A column whose word at a row is the specification's source word of edge e names the row e reads. -/
theorem clamp_reads (idx : IVec S1700000x1 32) (e : Fin 1600000)
    (h : idx (ix2 (edgeRow e) (0 : Fin 1)) = Cert.Gcn.srcWord ei e) :
    clampRow 100000 hN idx (edgeRow e) = Cert.Gcn.reads ei e := by
  apply Fin.ext
  show min (idx (ix2 (edgeRow e) (0 : Fin 1))).toInt.toNat (100000 - 1)
    = min (Cert.Gcn.srcCol ei (ix2 e (0 : Fin 1))).toInt.toNat (100000 - 1)
  rw [h]; rfl

/-- A column whose word at a loop row is the word of k names node k. -/
theorem clamp_loop (idx : IVec S1700000x1 32) (k : Fin 100000)
    (h : idx (ix2 (loopRow k) (0 : Fin 1)) = BitVec.ofNat 32 k.val) :
    clampRow 100000 hN idx (loopRow k) = k :=
  clampRow_of_toInt hN idx (loopRow k) k (by rw [h]; exact iota_toInt k)

theorem clamp23_edge (e : Fin 1600000) : clampRow 100000 hN (ReadP.val_main_v23 (F := Ideal) ei) (edgeRow e) = Cert.Gcn.reads ei e :=
  clamp_reads ei _ e ((v23_at ei _).trans (v22_edge ei e))

theorem clamp38_edge (e : Fin 1600000) : clampRow 100000 hN (ReadP.val_main_v38 (F := Ideal) ei) (edgeRow e) = Cert.Gcn.reads ei e :=
  clamp_reads ei _ e ((v38_at ei _).trans (v37_edge ei e))

theorem clamp23_loop (k : Fin 100000) : clampRow 100000 hN (ReadP.val_main_v23 (F := Ideal) ei) (loopRow k) = k :=
  clamp_loop _ k ((v23_at ei _).trans (v22_loop ei k))

theorem clamp38_loop (k : Fin 100000) : clampRow 100000 hN (ReadP.val_main_v38 (F := Ideal) ei) (loopRow k) = k :=
  clamp_loop _ k ((v38_at ei _).trans (v37_loop ei k))

theorem clamp30_loop (k : Fin 100000) : clampRow 100000 hN (ReadP.val_main_v30 (F := Ideal) ei) (loopRow k) = k :=
  clamp_loop _ k ((v30_at ei _).trans (v29_loop ei k))

/-- The normalised destination of an edge landing on p names p. -/
theorem clamp30_edge (e : Fin 1600000) (p : Fin 100000) (he : e ∈ Cert.Gcn.lands ei p) :
    clampRow 100000 hN (ReadP.val_main_v30 (F := Ideal) ei) (edgeRow e) = p :=
  clampRow_of_toInt hN _ (edgeRow e) p (by
    rw [v30_at, v29_edge ei e p he]
    exact (Finset.mem_filter.mp he).2)

/-! ## The destination column of the two scatters -/

theorem v12_edge (e : Fin 1600000) : ReadP.val_main_v12 (F := Ideal) ei (ix2 (edgeRow e) (0 : Fin 1)) = Cert.Gcn.dstWord ei e :=
  (v12_at ei _).trans (v9_edge ei e)

theorem v12_loop (k : Fin 100000) : (ReadP.val_main_v12 (F := Ideal) ei (ix2 (loopRow k) (0 : Fin 1))).toInt = (k.val : Int) := by
  rw [v12_at, v9_loop]; exact iota_toInt k

theorem v44_edge (e : Fin 1600000) : ReadP.val_main_v44 (F := Ideal) ei (ix2 (edgeRow e) (0 : Fin 1)) = Cert.Gcn.dstWord ei e :=
  (v44_at ei _).trans (v9_edge ei e)

theorem v44_loop (k : Fin 100000) : (ReadP.val_main_v44 (F := Ideal) ei (ix2 (loopRow k) (0 : Fin 1))).toInt = (k.val : Int) := by
  rw [v44_at, v9_loop]; exact iota_toInt k

end Cert.ReferenceIdeal.RefValue

end
-- ==== Proof.LibRealClosed.lean ====
/-
  Closure of the real numbers inside the extended reals.

  An extended real is called real here when it is the image of some real number. Zero and every coerced real are real, and
  the reals are closed under the sum, the difference and the product of the extended reals (whose values at the infinities
  are conventions that never come into play), hence under every finite sum.
-/
import Mathlib

open scoped BigOperators

namespace Cert.Lib.RealClosed

/-- An extended real that is the image of a real number. -/
def IsReal (e : EReal) : Prop := ∃ r : ℝ, e = (r : EReal)

theorem isReal_coe (r : ℝ) : IsReal (r : EReal) := ⟨r, rfl⟩

theorem isReal_zero : IsReal (0 : EReal) := ⟨0, rfl⟩

theorem IsReal.add {a b : EReal} (ha : IsReal a) (hb : IsReal b) : IsReal (a + b) := by
  obtain ⟨x, rfl⟩ := ha
  obtain ⟨y, rfl⟩ := hb
  exact ⟨x + y, (EReal.coe_add x y).symm⟩

theorem IsReal.sub {a b : EReal} (ha : IsReal a) (hb : IsReal b) : IsReal (a - b) := by
  obtain ⟨x, rfl⟩ := ha
  obtain ⟨y, rfl⟩ := hb
  exact ⟨x - y, (EReal.coe_sub x y).symm⟩

theorem IsReal.mul {a b : EReal} (ha : IsReal a) (hb : IsReal b) : IsReal (a * b) := by
  obtain ⟨x, rfl⟩ := ha
  obtain ⟨y, rfl⟩ := hb
  exact ⟨x * y, (EReal.coe_mul x y).symm⟩

/-- A finite sum of reals is a real. -/
theorem isReal_sum {ι : Type*} (s : Finset ι) (f : ι → EReal) (hf : ∀ k ∈ s, IsReal (f k)) :
    IsReal (∑ k ∈ s, f k) := by
  classical
  induction s using Finset.induction_on with
  | empty => simpa using isReal_zero
  | insert a s ha ih =>
    rw [Finset.sum_insert ha]
    exact (hf a (Finset.mem_insert_self a s)).add (ih fun k hk => hf k (Finset.mem_insert_of_mem hk))

/-- A sum over a whole finite type of reals is a real. -/
theorem isReal_sum_univ {ι : Type*} [Fintype ι] (f : ι → EReal) (hf : ∀ k, IsReal (f k)) :
    IsReal (∑ k, f k) :=
  isReal_sum Finset.univ f fun k _ => hf k

end Cert.Lib.RealClosed
-- ==== Proof.LibClampedDegree.lean ====
/-
  A clamped count of edges and its reciprocal, on the extended reals.

  `clamped_count_real`    a sum of ones over any finite set, started from zero and clamped below by one, is a real
                          number other than zero;
  `splat_apply`           a scalar f32 constant spread over any shape by a broadcast with no dimensions reads as the
                          constant at every index;
  `clamped_degree_real`   the host's accumulating scatter of an all-ones update array into an all-zeros operand,
                          clamped below by an all-ones array, read at an index, is a real number other than zero (any
                          shapes and dimension numbers: it is the count of the updates that land on the index);
  `mul_recip_eq_div`      for a real `r` other than zero, `x · (1 / r) = x / r` for every extended real `x`, the
                          infinities included (a mean computed by a reciprocal against one computed by a quotient).
-/
import Idealize.ShloMosaic.PureOps.Ideal
import Idealize.ShloMosaic.PureOps.Ideal.Laws
import Idealize.ShloMosaic.Lib.IdealHost
import Idealize.ShloMosaic.Lib.Pipeline.Value

noncomputable section

open scoped BigOperators

namespace Cert.LibClampedDegree

open Idealize.ShloMosaic

/-- Multiplying by the reciprocal of a real other than zero is dividing by it, at the infinities too. -/
theorem mul_recip_eq_div (x : EReal) {r : ℝ} (hr : r ≠ 0) :
    x * Ideal.div (Ideal.ofBits .f32 0x3F800000#32) (r : EReal) = Ideal.div x (r : EReal) := by
  rw [Ideal.ofBits_one_f32, Ideal.div_coe hr, Ideal.div_coe hr, one_mul]

/-- A count of ones started from zero and clamped below by one is a real number other than zero. -/
theorem clamped_count_real {ι : Type} (s : Finset ι) :
    ∃ r : ℝ, r ≠ 0 ∧ max (Ideal.ofBits .f32 0x00000000#32 + ∑ _j ∈ s, Ideal.ofBits .f32 0x3F800000#32)
      (Ideal.ofBits .f32 0x3F800000#32) = (r : EReal) := by
  refine ⟨max (s.card : ℝ) 1, ne_of_gt (lt_of_lt_of_le one_pos (le_max_right _ _)), ?_⟩
  rw [Ideal.ofBits_one_f32, Ideal.ofBits_zero_f32, zero_add, Finset.sum_const, EReal.nsmul_eq_mul, mul_one]
  rw [show ((s.card : ℕ) : EReal) = ((s.card : ℝ) : EReal) by norm_cast]
  rw [← EReal.coe_one]
  exact (EReal.coe_strictMono.monotone.map_max).symm

/-- A scalar constant spread over any shape reads as the constant at every index. -/
theorem splat_apply {t : Shape} (h : (⟨0, ![]⟩ : Shape).BroadcastsInDim t ![]) (b : BitVec 32) (i : t.Idx) :
    broadcastInDim t ![] h (constant (F := Ideal) ⟨0, ![]⟩ .f32 b) i = Ideal.ofBits .f32 b :=
  (broadcastInDim_apply ![] h (constant (F := Ideal) ⟨0, ![]⟩ .f32 b) i (fun a => a.elim0) (fun a => a.elim0)).trans rfl

/-- The count of the updates landing on an index, started from zero and clamped below by one, is a real number
    other than zero. -/
theorem clamped_degree_real {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    ∃ r : ℝ, r ≠ 0 ∧
      maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i = (r : EReal) := by
  have h : maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i
      = max (Ideal.ofBits .f32 0x00000000#32 + ∑ _j ∈ Finset.univ.filter (fun j => d.resultIdx? j idx = some i), Ideal.ofBits .f32 0x3F800000#32)
          (Ideal.ofBits .f32 0x3F800000#32) := by
    show max (Ideal.hostScatterAdd d _ idx _ i) _ = _
    unfold Ideal.hostScatterAdd
    simp only [splat_apply]
  rw [h]
  exact clamped_count_real _

end Cert.LibClampedDegree

end
-- ==== Proof.LibDegreeFactor.lean ====
/-
  The reciprocal square root of a clamped count of edges, on the extended reals.

  A count of ones over a finite set, started from zero and clamped below by one, is a real number that is at least one, so
  its reciprocal square root is a real number: the degree factor of a node is never an infinity, whatever the edges are.

  `clamped_count_pos`    the clamped count is a positive real;
  `clamped_degree_pos`   the host's accumulating scatter of an all-ones update array into an all-zeros operand, clamped
                         below by an all-ones array, read at an index, is a positive real (any shapes and dimension numbers);
  `rsqrt_real_of_pos`    the reciprocal square root of a positive real is a real;
  `degree_factor_real`   the reciprocal square root of the clamped count at an index is a real.
-/
import proofs.«131673_j33354716021156_2_alg».proof.Proof.LibClampedDegree
import proofs.«131673_j33354716021156_2_alg».proof.Proof.LibRealClosed

noncomputable section

open scoped BigOperators

namespace Cert.LibDegreeFactor

open Idealize.ShloMosaic Cert.LibClampedDegree Cert.Lib.RealClosed

/-- A count of ones started from zero and clamped below by one is a positive real. -/
theorem clamped_count_pos {ι : Type} (s : Finset ι) :
    ∃ r : ℝ, 0 < r ∧ max (Ideal.ofBits .f32 0x00000000#32 + ∑ _j ∈ s, Ideal.ofBits .f32 0x3F800000#32)
      (Ideal.ofBits .f32 0x3F800000#32) = (r : EReal) := by
  refine ⟨max (s.card : ℝ) 1, lt_of_lt_of_le one_pos (le_max_right _ _), ?_⟩
  rw [Ideal.ofBits_one_f32, Ideal.ofBits_zero_f32, zero_add, Finset.sum_const, EReal.nsmul_eq_mul, mul_one]
  rw [show ((s.card : ℕ) : EReal) = ((s.card : ℝ) : EReal) by norm_cast]
  rw [← EReal.coe_one]
  exact (EReal.coe_strictMono.monotone.map_max).symm

/-- The count of the updates landing on an index, started from zero and clamped below by one, is a positive real. -/
theorem clamped_degree_pos {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    ∃ r : ℝ, 0 < r ∧
      maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i = (r : EReal) := by
  have h : maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i
      = max (Ideal.ofBits .f32 0x00000000#32 + ∑ _j ∈ Finset.univ.filter (fun j => d.resultIdx? j idx = some i), Ideal.ofBits .f32 0x3F800000#32)
          (Ideal.ofBits .f32 0x3F800000#32) := by
    show max (Ideal.hostScatterAdd d _ idx _ i) _ = _
    unfold Ideal.hostScatterAdd
    simp only [splat_apply]
  rw [h]
  exact clamped_count_pos _

/-- The reciprocal square root of a positive real is a real. -/
theorem rsqrt_real_of_pos {r : ℝ} (hr : 0 < r) : IsReal (Ideal.rsqrt (r : EReal)) := by
  refine ⟨(Real.sqrt r)⁻¹, ?_⟩
  rw [Ideal.rsqrt_coe, if_neg (not_lt.2 hr.le), if_neg hr.ne']

/-- The degree factor of a node: the reciprocal square root of its clamped count of edges is a real. -/
theorem degree_factor_real {s si su : Shape} {w : Nat} (d : ScatterDims s si su) (idx : IVec si w)
    (hs : (⟨0, ![]⟩ : Shape).BroadcastsInDim s ![]) (hu : (⟨0, ![]⟩ : Shape).BroadcastsInDim su ![]) (i : s.Idx) :
    IsReal (Ideal.rsqrt (maximumf (Host.scatterAdd d (broadcastInDim s ![] hs (constant (F := Ideal) ⟨0, ![]⟩ .f32 0x00000000#32)) idx
          (broadcastInDim su ![] hu (constant (F := Ideal) ⟨0, ![]⟩ .f32 0x3F800000#32)))
        (broadcastInDim s ![] hs (constant (F := Ideal) ⟨0, ![]⟩ .f32 0x3F800000#32)) i)) := by
  obtain ⟨r, hr, e⟩ := clamped_degree_pos d idx hs hu i
  rw [e]
  exact rsqrt_real_of_pos hr

end Cert.LibDegreeFactor

end
-- ==== Proof.LibLogisticSoftplus.lean ====
/-
  The logistic function and softplus as they are spelt out in float operations, read over the extended reals.

  * The f32 word 0x3F800000 is 1 and the word 0x00000000 is 0.
  * 1 / (1 + e⁻ˣ), with the constant 1 given by its word, is the logistic function at every extended real
    (−∞ ↦ 0, +∞ ↦ 1 included): `logistic_eq`.
  * softplus x = log(1 + eˣ) in its overflow-safe form max(x, 0) + log1p(exp(−|x − 0|)), guarded by the test
    `x − 0 ≠ x − 0` that no extended real passes, in two spellings that differ only in how the exponent's sign is
    written — as a difference from zero (`softplusK`) or as a negation (`softplusH`) — and in the comparison's
    ordered / unordered flavour, which the extended reals do not tell apart: `softplusH_eq`.
-/
import Idealize.ShloMosaic.PureOps.Ideal.Laws

noncomputable section

namespace Cert.LibLogisticSoftplus

open Idealize.ShloMosaic

/-- The f32 words of 0 and of 1, as extended reals. -/
abbrev zeroW : EReal := Ideal.ofBits .f32 0x00000000#32
abbrev oneW : EReal := Ideal.ofBits .f32 0x3F800000#32

/-- The word of 0 is 0. -/
theorem zeroW_eq : zeroW = 0 := Ideal.ofBits_zero_f32

/-- The word of 1 is 1: sign 0, exponent 127, mantissa 0. -/
theorem oneW_eq : oneW = 1 := by
  show Ideal.ofBits .f32 0x3F800000#32 = ((1 : ℝ) : EReal)
  simp [Ideal.ofBits, Ideal.ieee, -EReal.coe_mul]
  norm_num

/-- softplus with the exponent −|x − 0| written as the difference 0 − |x − 0|, behind an ordered `≠` test. -/
def softplusK (x : EReal) : EReal :=
  Scalar.select (Ideal.cmp .one (x - zeroW) (x - zeroW)) (x + zeroW)
    (max x zeroW + Ideal.log1p (Ideal.exp (zeroW - max (x - zeroW) (-(x - zeroW)))))

/-- softplus with the exponent written as the negation −|x − 0|, behind an unordered `≠` test. -/
def softplusH (x : EReal) : EReal :=
  Scalar.select (Ideal.cmp .une (x - zeroW) (x - zeroW)) (x + zeroW)
    (max x zeroW + Ideal.log1p (Ideal.exp (-(max (x - zeroW) (-(x - zeroW))))))

/-- The two spellings are one function: 0 − y = −y, and the two comparisons agree on the extended reals. -/
theorem softplusH_eq (x : EReal) : softplusH x = softplusK x := by
  unfold softplusK softplusH
  rw [show Ideal.cmp .one (x - zeroW) (x - zeroW) = Ideal.cmp .une (x - zeroW) (x - zeroW) from rfl]
  rw [show zeroW - max (x - zeroW) (-(x - zeroW)) = -(max (x - zeroW) (-(x - zeroW))) by rw [zeroW_eq, zero_sub]]

/-- The logistic function spelt 1 / (1 + e⁻ˣ) with the word of 1. -/
theorem logistic_eq (x : EReal) : Ideal.div oneW (oneW + Ideal.exp (-x)) = Ideal.logistic x := by
  rw [oneW_eq]; rfl

end Cert.LibLogisticSoftplus

end
-- ==== Proof.LibNonnegScale.lean ====
/-
  A nonnegative real factor and sums of extended reals.

  On the extended reals a product does not distribute over a sum in general (the sum of +inf and -inf is junk), but a
  nonnegative REAL factor does, over two terms and over any finite sum: scaling by it is additive. Also: a finite sum
  of ones is the number of terms, a real.
-/
import Mathlib

namespace Cert.LibNonnegScale

open Finset

/-- A nonnegative real factor distributes over a sum of two extended reals. -/
theorem coe_mul_add (r : ℝ) (hr : 0 ≤ r) (y z : EReal) : (r : EReal) * (y + z) = (r : EReal) * y + (r : EReal) * z :=
  EReal.left_distrib_of_nonneg_of_ne_top (EReal.coe_nonneg.mpr hr) (EReal.coe_ne_top r) y z

/-- A nonnegative real factor distributes over a finite sum of extended reals. -/
theorem coe_mul_sum {ι : Type*} (r : ℝ) (hr : 0 ≤ r) (s : Finset ι) (f : ι → EReal) :
    (r : EReal) * ∑ i ∈ s, f i = ∑ i ∈ s, (r : EReal) * f i := by
  classical
  induction s using Finset.induction_on with
  | empty => simp
  | insert a s ha ih => rw [Finset.sum_insert ha, Finset.sum_insert ha, coe_mul_add r hr, ih]

/-- A finite sum of ones is the number of terms. -/
theorem sum_ones {ι : Type*} (s : Finset ι) : (∑ _e ∈ s, (1 : EReal)) = ((s.card : ℝ) : EReal) := by
  classical
  induction s using Finset.induction_on with
  | empty => simp
  | insert a s ha ih =>
    rw [Finset.sum_insert ha, ih, Finset.card_insert_of_notMem ha]
    push_cast
    rw [add_comm]

end Cert.LibNonnegScale
-- ==== Proof.GcnAlgebra.lean ====
/-
  The arithmetic behind the two arrangements of the graph aggregation.

  Every node's degree is a positive real (the count of the edges landing on it, plus one), so its factor 1/sqrt(deg) is
  a real; the linear layer of finite inputs is a real. On reals the factor of the receiving node moves out of the sum:

    (0 + sum_e L(g e) * (d(g e) * d p)) + L p * (d p * d p) = d p * ((0 + sum_e L(g e) * d(g e)) + L p * d p)

  which on the extended reals would fail at the infinities; this is the one place the inputs' finiteness is used.
-/
import Mathlib
import proofs.«131673_j33354716021156_2_alg».proof.Proof.GcnSpec
import proofs.«131673_j33354716021156_2_alg».proof.Proof.LibRealClosed
import proofs.«131673_j33354716021156_2_alg».proof.Proof.LibDegreeFactor
import proofs.«131673_j33354716021156_2_alg».proof.Proof.LibLogisticSoftplus
import proofs.«131673_j33354716021156_2_alg».proof.Proof.LibNonnegScale

noncomputable section

namespace Cert.Gcn

open Idealize.ShloMosaic Idealize.ShloMosaic.ValueIdx Finset Cert.Lib Cert.Lib.RealClosed

/-- The receiving node's factor moves out of the sum over its in-neighbours and its own term. -/
theorem agg_law {ι κ : Type} (S : Finset ι) (g : ι → κ) (L d : κ → ℝ) (p : κ) :
    (zeroW + ∑ e ∈ S, ((L (g e) : ℝ) : EReal) * (((d (g e) : ℝ) : EReal) * ((d p : ℝ) : EReal)))
        + ((L p : ℝ) : EReal) * (((d p : ℝ) : EReal) * ((d p : ℝ) : EReal))
      = ((d p : ℝ) : EReal) * ((zeroW + ∑ e ∈ S, ((L (g e) : ℝ) : EReal) * ((d (g e) : ℝ) : EReal))
          + ((L p : ℝ) : EReal) * ((d p : ℝ) : EReal)) := by
  have hz : zeroW = 0 := Ideal.ofBits_zero_f32
  -- a finite sum of coerced reals is the coerced sum
  have hsum : ∀ (T : Finset ι) (f : ι → ℝ), (∑ e ∈ T, ((f e : ℝ) : EReal)) = ((∑ e ∈ T, f e : ℝ) : EReal) := by
    intro T f
    classical
    induction T using Finset.induction_on with
    | empty => simp
    | insert a s ha ih => rw [Finset.sum_insert ha, Finset.sum_insert ha, EReal.coe_add, ih]
  rw [hz, zero_add, zero_add]
  simp only [← EReal.coe_mul]
  rw [hsum, hsum, ← EReal.coe_add, ← EReal.coe_add, ← EReal.coe_mul]
  -- now both sides are coerced reals: the identity is distributivity in the real field
  congr 1
  rw [mul_add, Finset.mul_sum]
  congr 1
  · exact Finset.sum_congr rfl fun e _ => by ring
  · ring

/-- A node's degree is a positive real. -/
theorem deg_pos (ei : IVec SEI 32) (p : Fin 100000) : ∃ r : ℝ, 0 < r ∧ deg ei p = (r : EReal) := by
  refine ⟨((lands ei p).card : ℝ) + 1, by positivity, ?_⟩
  unfold deg
  rw [show zeroW = 0 from Ideal.ofBits_zero_f32, show oneW = 1 from Ideal.ofBits_one_f32, zero_add,
    Cert.LibNonnegScale.sum_ones, EReal.coe_add, EReal.coe_one]

/-- A node's factor is a real. -/
theorem dinv_real (ei : IVec SEI 32) (p : Fin 100000) : IsReal (dinv ei p) := by
  obtain ⟨r, hr, e⟩ := deg_pos ei p
  unfold dinv
  rw [e]
  exact Cert.LibDegreeFactor.rsqrt_real_of_pos hr

/-- The linear layer of finite inputs is a real. -/
theorem lin_real (x hs : FVec Ideal SNC .f32) (W : FVec Ideal SW .f32) (hx : ∀ i, IsReal (x i)) (hhs : ∀ i, IsReal (hs i))
    (hW : ∀ i, IsReal (W i)) (p : Fin 100000) (q : Fin 128) : IsReal (lin x hs W p q) := by
  unfold lin
  exact (isReal_sum_univ _ fun k => (hx _).mul (hW _)).add (isReal_sum_univ _ fun k => (hhs _).mul (hW _))

end Cert.Gcn

end
-- ==== Proof.RefDegree.lean ====
/-
  The reference's degrees and normalising factors.

  The degree vector is an accumulating scatter of ones into zeros over the 1700000 rows of the destination column. The
  1600000 edge rows contribute one for every edge landing on node p; of the 100000 loop rows exactly row p names p, and
  contributes one more:

    degree p = 0 + (the ones of the edges landing on p + 1) = (0 + the ones of the edges landing on p) + 1.

  The degree is a positive real, so the test "degree > 0" holds at every node and the selected factor is 1 / sqrt(degree).
-/
import proofs.«131673_j33354716021156_2_alg».proof.Proof.RefIndex
import proofs.«131673_j33354716021156_2_alg».proof.Proof.GcnAlgebra
import proofs.«131673_j33354716021156_2_alg».proof.Proof.LibScatterSum
import proofs.«131673_j33354716021156_2_alg».proof.Proof.LibHostRead

noncomputable section

namespace Cert.ReferenceIdeal.RefValue

open Cert.ReferenceIdeal Cert.ReferenceIdeal.Gen Idealize.ShloMosaic Idealize.ShloMosaic.ValueIdx Cert.SumParts Cert.Lib Finset

theorem isVecScatter_deg : IsVecScatter scatter_S100000_S1700000x1_S1700000_n_0_0_1 := ⟨rfl, rfl, rfl, rfl⟩

/-- The zeros the degrees are accumulated into. -/
theorem v11_at (p : Fin 100000) : ReadP.val_main_v11 (F := Ideal) (ix1 p) = Cert.Gcn.zeroW := by
  unfold ReadP.val_main_v11 ReadP.val_main_cst_0
  exact HostRead.splat_at _ _ _

/-- The ones that are accumulated. -/
theorem v10_at (r : Fin 1700000) : ReadP.val_main_v10 (F := Ideal) (ix1 r) = Cert.Gcn.oneW := by
  unfold ReadP.val_main_v10 ReadP.val_main_cst
  exact HostRead.splat_at _ _ _

/-- The zeros the degrees are compared with. -/
theorem v14_at (p : Fin 100000) : ReadP.val_main_v14 (F := Ideal) (ix1 p) = Cert.Gcn.zeroW := by
  unfold ReadP.val_main_v14 ReadP.val_main_cst_1
  exact HostRead.splat_at _ _ _

variable (ei : IVec S2x1600000 32)

/-- The scattered ones at node p: the specification's degree. -/
theorem v13_at (p : Fin 100000) : ReadP.val_main_v13 (F := Ideal) ei (ix1 p) = Cert.Gcn.deg ei p := by
  unfold ReadP.val_main_v13
  rw [vecScatterAdd_apply _ isVecScatter_deg, v11_at,
    sum_filter_edges_loop 1600000 100000 1700000 hT
      (fun r : Fin 1700000 => (ReadP.val_main_v12 (F := Ideal) ei (ix2 r (0 : Fin 1))).toInt = (p.val : Int))
      (fun r => ReadP.val_main_v10 (F := Ideal) (ix1 r))
      (fun e : Fin 1600000 => (Cert.Gcn.dstWord ei e).toInt = (p.val : Int)) (fun _ => Cert.Gcn.oneW) p Cert.Gcn.oneW
      (fun e => by rw [v12_edge]) (fun e => v10_at _)
      (fun k => by
        rw [v12_loop]
        constructor
        · intro h; exact Fin.ext (by exact_mod_cast h)
        · intro h; rw [h])
      (v10_at _),
    ← add_assoc]
  rfl

/-- The selected factor at node p: the specification's. -/
theorem v17_at (p : Fin 100000) : ReadP.val_main_v17 (F := Ideal) ei (ix1 p) = Cert.Gcn.dinv ei p := by
  rw [ReadP.val_main_v17_apply, ReadP.val_main_v15_apply, ReadP.val_main_v16_apply, v13_at, v14_at]
  obtain ⟨r, hr, e⟩ := Cert.Gcn.deg_pos ei p
  have hc : FloatOps.cmpf (F := Ideal) (φ := .f32) .ogt (Cert.Gcn.deg ei p) Cert.Gcn.zeroW = 1#1 := by
    show Ideal.cmp .ogt _ _ = 1#1
    unfold Ideal.cmp
    rw [e, show Cert.Gcn.zeroW = 0 from Ideal.ofBits_zero_f32]
    have : (0 : EReal) < (r : EReal) := EReal.coe_pos.mpr hr
    simp [this]
  rw [hc]
  unfold Scalar.select
  rw [if_pos (show (1#1 : BitVec 1) = 1 from rfl)]
  unfold Cert.Gcn.dinv
  exact Ideal.hostUnary_rsqrt_def _

end Cert.ReferenceIdeal.RefValue

end
-- ==== Proof.LibConcatCols.lean ====
/-
  Concatenations of matrices read at an entry.

  Side by side (along the columns): two blocks [a, n₁] | [a, n₂], and three blocks [a, n₁] | [a, n₂] | [a, n₃]; entry
  (p, j) of the result is entry (p, j − the widths before it) of the block whose span holds column j.
  One under another (along the rows): three blocks of [r₁, b], [r₂, b], [r₃, b] rows.
-/
import Idealize.ShloMosaic.Lib.Pipeline.Value
import Idealize.ShloMosaic.Lib.ValueIdx

namespace Cert.Lib

open Idealize.ShloMosaic Idealize.ShloMosaic.ValueIdx

variable {α : Type} {a n n₁ n₂ n₃ : Nat}

/-- Two blocks side by side, read in the left block. -/
theorem concat2_cols_left (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩] h (ix2 p j) = x (ix2 p q) :=
  concatenate_apply_piece (t := ⟨2, ![a, n]⟩) 1 [⟨⟨2, ![a, n₁]⟩, x⟩, ⟨⟨2, ![a, n₂]⟩, y⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Two blocks side by side, read in the right block. -/
theorem concat2_cols_right (x : (⟨2, ![a, n₁]⟩ : Shape).Idx → α) (y : (⟨2, ![a, n₂]⟩ : Shape).Idx → α)
    (h : Shape.Concatenates [⟨2, ![a, n₁]⟩, ⟨2, ![a, n₂]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩] h (ix2 p j) = y (ix2 p q) :=
  concatenate_apply_piece (t := ⟨2, ![a, n]⟩) 1 [⟨⟨2, ![a, n₁]⟩, x⟩, ⟨⟨2, ![a, n₂]⟩, y⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the first. -/
theorem concat3_cols_fst (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₁)
    (hq : q.val = j.val) :
    concatenate ⟨2, ![a, n]⟩ 1 [⟨⟨2, ![a, n₁]⟩, x⟩, ⟨⟨2, ![a, n₂]⟩, y⟩, ⟨⟨2, ![a, n₃]⟩, z⟩] h (ix2 p j) = x (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 0 (by simp) _ x rfl rfl 0 rfl (ix2 p q)
    (fun b hb => by
      match b with
      | ⟨0, _⟩ => rfl
      | ⟨1, _⟩ => exact absurd rfl hb)
    (by show 0 + q.val = j.val; omega)

/-- Three blocks side by side, read in the second. -/
theorem concat3_cols_snd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₂)
    (hq : n₁ + q.val = j.val) :
    concatenate ⟨2, ![a, n]⟩ 1 [⟨⟨2, ![a, n₁]⟩, x⟩, ⟨⟨2, ![a, n₂]⟩, y⟩, ⟨⟨2, ![a, n₃]⟩, z⟩] h (ix2 p j) = y (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 1 (by simp) _ y rfl rfl n₁
    (by simp) (ix2 p q)
    (fun b hb => by
      match b with
      | ⟨0, _⟩ => rfl
      | ⟨1, _⟩ => exact absurd rfl hb)
    (by show n₁ + q.val = j.val; omega)

/-- Three blocks side by side, read in the third. -/
theorem concat3_cols_thd (x : (⟨2, ![a, n₁]⟩ : Shape).Idx → α) (y : (⟨2, ![a, n₂]⟩ : Shape).Idx → α) (z : (⟨2, ![a, n₃]⟩ : Shape).Idx → α)
    (h : Shape.Concatenates [⟨2, ![a, n₁]⟩, ⟨2, ![a, n₂]⟩, ⟨2, ![a, n₃]⟩] ⟨2, ![a, n]⟩ 1) (p : Fin a) (j : Fin n) (q : Fin n₃)
    (hq : n₁ + n₂ + q.val = j.val) :
    concatenate ⟨2, ![a, n]⟩ 1 [⟨⟨2, ![a, n₁]⟩, x⟩, ⟨⟨2, ![a, n₂]⟩, y⟩, ⟨⟨2, ![a, n₃]⟩, z⟩] h (ix2 p j) = z (ix2 p q) :=
  concatenate_apply_piece (t := ⟨2, ![a, n]⟩) 1 [⟨⟨2, ![a, n₁]⟩, x⟩, ⟨⟨2, ![a, n₂]⟩, y⟩, ⟨⟨2, ![a, n₃]⟩, z⟩] h (ix2 p j) 2 (by simp) _ z rfl rfl (n₁ + n₂)
    (by simp) (ix2 p q)
    (fun b hb => by
      match b with
      | ⟨0, _⟩ => rfl
      | ⟨1, _⟩ => exact absurd rfl hb)
    (by show n₁ + n₂ + q.val = j.val; omega)

variable {b r₁ r₂ r₃ : Nat}

/-- Three blocks one under another, read in block `k` (of one row each when the blocks are rows). -/
theorem concat3_rows_one (x y z : (⟨2, ![1, b]⟩ : Shape).Idx → α)
    (h : Shape.Concatenates [⟨2, ![1, b]⟩, ⟨2, ![1, b]⟩, ⟨2, ![1, b]⟩] ⟨2, ![3, b]⟩ 0) (k : Fin 3) (e : Fin b) :
    concatenate ⟨2, ![3, b]⟩ 0 [⟨⟨2, ![1, b]⟩, x⟩, ⟨⟨2, ![1, b]⟩, y⟩, ⟨⟨2, ![1, b]⟩, z⟩] h (ix2 k e)
      = (![x, y, z] k) (ix2 (0 : Fin 1) e) := by
  match k with
  | ⟨0, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 0 (by simp) _ x rfl rfl 0 rfl (ix2 0 e)
      (fun c hc => by
        match c with
        | ⟨0, _⟩ => exact absurd rfl hc
        | ⟨1, _⟩ => rfl) rfl
  | ⟨1, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 1 (by simp) _ y rfl rfl 1 (by simp) (ix2 0 e)
      (fun c hc => by
        match c with
        | ⟨0, _⟩ => exact absurd rfl hc
        | ⟨1, _⟩ => rfl) rfl
  | ⟨2, _⟩ =>
    exact concatenate_apply_piece (t := ⟨2, ![3, b]⟩) 0 [⟨⟨2, ![1, b]⟩, x⟩, ⟨⟨2, ![1, b]⟩, y⟩, ⟨⟨2, ![1, b]⟩, z⟩] h (ix2 _ e) 2 (by simp) _ z rfl rfl 2 (by simp) (ix2 0 e)
      (fun c hc => by
        match c with
        | ⟨0, _⟩ => exact absurd rfl hc
        | ⟨1, _⟩ => rfl) rfl

end Cert.Lib
-- ==== Proof.RefLinear.lean ====
/-
  The reference's linear layer, read at an entry.

  The inputs x and the state hs, each [100000, 128], are set side by side into a [100000, 256] array and multiplied by the
  [256, 128] weight matrix. Entry (p, q) of the product is a sum over the 256 columns; the first 128 columns are x's and
  meet the upper half of the weights, the last 128 are hs's and meet the lower half:

    sum_{k < 256} [x | hs](p, k) W(k, q) = sum_{k < 128} x(p, k) W(k, q) + sum_{k < 128} hs(p, k) W(128 + k, q).
-/
import proofs.«131673_j33354716021156_2_alg».proof.Proof.RefReadP
import proofs.«131673_j33354716021156_2_alg».proof.Proof.GcnSpec
import proofs.«131673_j33354716021156_2_alg».proof.Proof.LibConcatCols

noncomputable section

namespace Cert.ReferenceIdeal.RefValue

open Cert.ReferenceIdeal Cert.ReferenceIdeal.Gen Idealize.ShloMosaic Idealize.ShloMosaic.ValueIdx Cert.Lib

/-- A sum over 256 positions is the sum over the first 128 plus the sum over the last 128. -/
theorem sum_two_halves (f : Fin 256 → EReal) :
    ∑ k : Fin 256, f k = ∑ k : Fin 128, f ⟨k.val, by omega⟩ + ∑ k : Fin 128, f ⟨128 + k.val, by omega⟩ :=
  Fin.sum_univ_add (a := 128) (b := 128) f

variable (x hs : FVec Ideal S100000x128 .f32) (W : FVec Ideal S256x128 .f32)

/-- The joined array in its first 128 columns is x. -/
theorem v0_left (p : Fin 100000) (k : Fin 128) :
    ReadP.val_main_v0 (F := Ideal) x hs (ix2 p (⟨k.val, by omega⟩ : Fin 256)) = x (ix2 p k) :=
  concat2_cols_left x hs concatenates_S100000x128_S100000x128_S100000x256_d1 p _ k rfl

/-- The joined array in its last 128 columns is hs. -/
theorem v0_right (p : Fin 100000) (k : Fin 128) :
    ReadP.val_main_v0 (F := Ideal) x hs (ix2 p (⟨128 + k.val, by omega⟩ : Fin 256)) = hs (ix2 p k) :=
  concat2_cols_right x hs concatenates_S100000x128_S100000x128_S100000x256_d1 p _ k rfl

/-- The product at (p, q) is the specification's linear layer. -/
theorem v1_at (p : Fin 100000) (q : Fin 128) :
    ReadP.val_main_v1 (F := Ideal) x hs W (ix2 p q) = Cert.Gcn.lin x hs W p q := by
  have el : ∀ k : Fin 256, ReadP.lidx_main_v1 (ix2 p q) k = ix2 p k := fun k =>
    funext fun a => by match a with | ⟨0, _⟩ => rfl | ⟨1, _⟩ => rfl
  have er : ∀ k : Fin 256, ReadP.ridx_main_v1 (ix2 p q) k = ix2 k q := fun k =>
    funext fun a => by match a with | ⟨0, _⟩ => rfl | ⟨1, _⟩ => rfl
  rw [ReadP.val_main_v1_apply]
  simp only [el, er]
  rw [sum_two_halves]
  unfold Cert.Gcn.lin
  refine congrArg₂ (· + ·) (Finset.sum_congr rfl fun k _ => ?_) (Finset.sum_congr rfl fun k _ => ?_)
  · rw [v0_left]
  · rw [v0_right]

end Cert.ReferenceIdeal.RefValue

end
-- ==== Proof.RefMessages.lean ====
/-
  The reference's messages, one per row of the edge-and-loop list.

  Row r carries the linear layer's row named by the normalised source, scaled by the factor of the node the source names
  times the factor of the node the destination names; the three names are gathers by clamped signed words:

    message(r, q) = lin(row the source names, q) * (dinv(node the source names) * dinv(node the destination names)).

  On the row of an edge e landing on node p this is lin(reads e, q) * (dinv(reads e) * dinv p); on the loop row of node k
  it is lin(k, q) * (dinv k * dinv k).
-/
import proofs.«131673_j33354716021156_2_alg».proof.Proof.RefDegree
import proofs.«131673_j33354716021156_2_alg».proof.Proof.RefLinear
import proofs.«131673_j33354716021156_2_alg».proof.Proof.LibGatherRows

noncomputable section

namespace Cert.ReferenceIdeal.RefValue

open Cert.ReferenceIdeal Cert.ReferenceIdeal.Gen Idealize.ShloMosaic Idealize.ShloMosaic.ValueIdx Cert.SumParts Cert.Lib Finset

theorem isVecGather_factor : IsVecGather gather_S100000_S1700000x1_S1700000_n_0_n_n_0_1_1 :=
  ⟨rfl, rfl, rfl, rfl, rfl, rfl, rfl⟩

theorem isRowGather_lin : IsRowGather gather_S100000x128_S1700000x1_S1700000x128_1_0_n_n_0_1_1128 :=
  ⟨rfl, rfl, rfl, rfl, rfl, rfl, rfl⟩

variable (x hs : FVec Ideal S100000x128 .f32) (W : FVec Ideal S256x128 .f32) (ei : IVec S2x1600000 32)

/-- The factor of the node a row's source names. -/
theorem v24_at (r : Fin 1700000) : ReadP.val_main_v24 (F := Ideal) ei (ix1 r)
    = Cert.Gcn.dinv ei (clampRow 100000 hN (ReadP.val_main_v23 (F := Ideal) ei) r) := by
  unfold ReadP.val_main_v24
  rw [vec_gather_apply hN _ isVecGather_factor, v17_at]

/-- The factor of the node a row's destination names. -/
theorem v31_at (r : Fin 1700000) : ReadP.val_main_v31 (F := Ideal) ei (ix1 r)
    = Cert.Gcn.dinv ei (clampRow 100000 hN (ReadP.val_main_v30 (F := Ideal) ei) r) := by
  unfold ReadP.val_main_v31
  rw [vec_gather_apply hN _ isVecGather_factor, v17_at]

/-- The linear layer's row a row's source names. -/
theorem v39_at (r : Fin 1700000) (q : Fin 128) : ReadP.val_main_v39 (F := Ideal) x hs W ei (ix2 r q)
    = Cert.Gcn.lin x hs W (clampRow 100000 hN (ReadP.val_main_v38 (F := Ideal) ei) r) q := by
  unfold ReadP.val_main_v39
  rw [row_gather_apply hN _ isRowGather_lin, v1_at]

/-- The message of row r in column q. -/
theorem v42_at (r : Fin 1700000) (q : Fin 128) : ReadP.val_main_v42 (F := Ideal) x hs W ei (ix2 r q)
    = Cert.Gcn.lin x hs W (clampRow 100000 hN (ReadP.val_main_v38 (F := Ideal) ei) r) q
      * (Cert.Gcn.dinv ei (clampRow 100000 hN (ReadP.val_main_v23 (F := Ideal) ei) r)
          * Cert.Gcn.dinv ei (clampRow 100000 hN (ReadP.val_main_v30 (F := Ideal) ei) r)) := by
  have e : ReadP.idx_main_v40 (ReadP.idx_main_v41 (ix2 r q)) = ix1 r :=
    funext fun a => by match a with | ⟨0, _⟩ => rfl
  rw [ReadP.val_main_v42_apply, ReadP.val_main_v41_apply, ReadP.val_main_v40_apply, ReadP.val_main_v32_apply, e,
    v39_at, v24_at, v31_at]
  simp only [Ideal.mulf_def]

/-- The message of an edge landing on node p. -/
theorem msg_edge (e : Fin 1600000) (p : Fin 100000) (he : e ∈ Cert.Gcn.lands ei p) (q : Fin 128) :
    ReadP.val_main_v42 (F := Ideal) x hs W ei (ix2 (edgeRow e) q)
      = Cert.Gcn.lin x hs W (Cert.Gcn.reads ei e) q
        * (Cert.Gcn.dinv ei (Cert.Gcn.reads ei e) * Cert.Gcn.dinv ei p) := by
  rw [v42_at, clamp38_edge, clamp23_edge, clamp30_edge ei e p he]

/-- The message of node k's loop. -/
theorem msg_loop (k : Fin 100000) (q : Fin 128) :
    ReadP.val_main_v42 (F := Ideal) x hs W ei (ix2 (loopRow k) q)
      = Cert.Gcn.lin x hs W k q * (Cert.Gcn.dinv ei k * Cert.Gcn.dinv ei k) := by
  rw [v42_at, clamp38_loop, clamp23_loop, clamp30_loop]

end Cert.ReferenceIdeal.RefValue

end
-- ==== Proof.RefAggregate.lean ====
/-
  The reference's aggregation, read at an entry, and the law that joins it to the specification.

  The aggregate is an accumulating scatter of the 1700000 messages into zeros by the destination column. At entry (p, q)
  the edge rows contribute the messages of the edges landing on p, and of the loop rows exactly the loop of p contributes:

    agg(p, q) = (0 + sum over e landing on p of lin(reads e, q) * (dinv(reads e) * dinv p)) + lin(p, q) * (dinv p * dinv p).

  Every factor dinv and, for finite inputs, every lin is a real number, and on reals the factor dinv p of the receiving
  node moves out of the whole sum:

    agg(p, q) = dinv p * ((0 + sum over e landing on p of lin(reads e, q) * dinv(reads e)) + lin(p, q) * dinv p).
-/
import proofs.«131673_j33354716021156_2_alg».proof.Proof.RefMessages
import proofs.«131673_j33354716021156_2_alg».proof.Proof.LibScatterSum

noncomputable section

namespace Cert.ReferenceIdeal.RefValue

open Cert.ReferenceIdeal Cert.ReferenceIdeal.Gen Idealize.ShloMosaic Idealize.ShloMosaic.ValueIdx Cert.SumParts Cert.Lib
  Cert.Lib.RealClosed Finset

theorem isRowScatter_agg : IsRowScatter scatter_S100000x128_S1700000x1_S1700000x128_1_0_0_1 := ⟨rfl, rfl, rfl, rfl⟩

/-- The zeros the messages are accumulated into. -/
theorem v43_at (p : Fin 100000) (q : Fin 128) : ReadP.val_main_v43 (F := Ideal) (ix2 p q) = Cert.Gcn.zeroW := by
  unfold ReadP.val_main_v43 ReadP.val_main_cst_8
  exact HostRead.splat_at _ _ _

variable (x hs : FVec Ideal S100000x128 .f32) (W : FVec Ideal S256x128 .f32) (ei : IVec S2x1600000 32)

/-- The aggregate at (p, q) as the sum over the edges landing on p plus p's own term. -/
theorem v45_sum (p : Fin 100000) (q : Fin 128) : ReadP.val_main_v45 (F := Ideal) x hs W ei (ix2 p q)
    = (Cert.Gcn.zeroW + ∑ e ∈ Cert.Gcn.lands ei p, Cert.Gcn.lin x hs W (Cert.Gcn.reads ei e) q
          * (Cert.Gcn.dinv ei (Cert.Gcn.reads ei e) * Cert.Gcn.dinv ei p))
      + Cert.Gcn.lin x hs W p q * (Cert.Gcn.dinv ei p * Cert.Gcn.dinv ei p) := by
  have hsum : ∑ e ∈ univ.filter (fun e : Fin 1600000 => (Cert.Gcn.dstWord ei e).toInt = (p.val : Int)),
        ReadP.val_main_v42 (F := Ideal) x hs W ei (ix2 (edgeRow e) q)
      = ∑ e ∈ Cert.Gcn.lands ei p, Cert.Gcn.lin x hs W (Cert.Gcn.reads ei e) q
          * (Cert.Gcn.dinv ei (Cert.Gcn.reads ei e) * Cert.Gcn.dinv ei p) :=
    Finset.sum_congr rfl fun e he => msg_edge x hs W ei e p he q
  unfold ReadP.val_main_v45
  rw [rowScatterAdd_apply _ isRowScatter_agg, v43_at,
    sum_filter_edges_loop 1600000 100000 1700000 hT
      (fun r : Fin 1700000 => (ReadP.val_main_v44 (F := Ideal) ei (ix2 r (0 : Fin 1))).toInt = (p.val : Int))
      (fun r => ReadP.val_main_v42 (F := Ideal) x hs W ei (ix2 r q))
      (fun e : Fin 1600000 => (Cert.Gcn.dstWord ei e).toInt = (p.val : Int))
      (fun e => ReadP.val_main_v42 (F := Ideal) x hs W ei (ix2 (edgeRow e) q)) p
      (ReadP.val_main_v42 (F := Ideal) x hs W ei (ix2 (loopRow p) q))
      (fun e => by rw [v44_edge]) (fun e => rfl)
      (fun k => by
        rw [v44_loop]
        constructor
        · intro h; exact Fin.ext (by exact_mod_cast h)
        · intro h; rw [h])
      rfl,
    hsum, msg_loop, ← add_assoc]

/-- The aggregate at (p, q) in the specification's arrangement, for finite inputs. -/
theorem v45_at (hx : ∀ i, IsReal (x i)) (hhs : ∀ i, IsReal (hs i)) (hW : ∀ i, IsReal (W i)) (p : Fin 100000) (q : Fin 128) :
    ReadP.val_main_v45 (F := Ideal) x hs W ei (ix2 p q)
      = Cert.Gcn.dinv ei p * (Cert.Gcn.gathered x hs W ei p q + Cert.Gcn.scaled x hs W ei p q) := by
  have hL : ∀ j, IsReal (Cert.Gcn.lin x hs W j q) := fun j => Cert.Gcn.lin_real x hs W hx hhs hW j q
  have hd : ∀ j, IsReal (Cert.Gcn.dinv ei j) := Cert.Gcn.dinv_real ei
  choose L hLe using hL
  choose d hde using hd
  rw [v45_sum]
  unfold Cert.Gcn.gathered Cert.Gcn.scaled
  simp only [hLe, hde]
  exact Cert.Gcn.agg_law (Cert.Gcn.lands ei p) (Cert.Gcn.reads ei) L d p

end Cert.ReferenceIdeal.RefValue

end
-- ==== Proof.RefValue.lean ====
/-
  The reference's two results are the specification's arrays.

  After the aggregation the reference adds the bias (broadcast over the rows) and the array b, takes the logistic function
  spelt 1 / (1 + exp(-s)) with the word of 1, and multiplies by V and adds c:

    b(p,q) + (agg(p,q) + bias q) = (b(p,q) + agg(p,q)) + bias q            (addition is associative on all extended reals)
    1 / (1 + exp(-s)) = logistic s
    c(p,q) + sum_k hidden(p,k) V(k,q).

  Only x, hs and W are asked to be real (they meet the law that moves a factor out of a sum); bias, b, V and c meet sums
  and products arranged alike on both sides.
-/
import proofs.«131673_j33354716021156_2_alg».proof.Proof.RefAggregate
import proofs.«131673_j33354716021156_2_alg».proof.Proof.LibLogisticSoftplus

noncomputable section

namespace Cert.ReferenceIdeal.RefValue

open Cert.ReferenceIdeal Cert.ReferenceIdeal.Gen Idealize.ShloMosaic Idealize.ShloMosaic.ValueIdx Cert.Lib
  Cert.Lib.RealClosed Finset

variable (x hs : FVec Ideal S100000x128 .f32) (W : FVec Ideal S256x128 .f32) (bias : FVec Ideal S128 .f32)
  (b : FVec Ideal S100000x128 .f32) (ei : IVec S2x1600000 32)

/-- What the logistic function is applied to. -/
theorem v49_at (hx : ∀ i, IsReal (x i)) (hhs : ∀ i, IsReal (hs i)) (hW : ∀ i, IsReal (W i)) (p : Fin 100000) (q : Fin 128) :
    ReadP.val_main_v49 (F := Ideal) x hs W bias b ei (ix2 p q) = Cert.Gcn.pre x hs W bias b ei p q := by
  have e : ReadP.idx_main_v46 (ReadP.idx_main_v47 (ix2 p q)) = ix1 q :=
    funext fun a => by match a with | ⟨0, _⟩ => rfl
  rw [ReadP.val_main_v49_apply, ReadP.val_main_v48_apply, v45_at x hs W ei hx hhs hW, ReadP.val_main_v47_apply,
    ReadP.val_main_v46_apply, e]
  unfold Cert.Gcn.pre
  simp only [Ideal.addf_def]
  exact (add_assoc _ _ _).symm

/-- The new hidden state at (p, q). -/
theorem v55_at (hx : ∀ i, IsReal (x i)) (hhs : ∀ i, IsReal (hs i)) (hW : ∀ i, IsReal (W i)) (p : Fin 100000) (q : Fin 128) :
    ReadP.val_main_v55 (F := Ideal) x hs W bias b ei (ix2 p q) = Cert.Gcn.hidden x hs W bias b ei p q := by
  rw [ReadP.val_main_v55_apply, ReadP.val_main_v54_apply, ReadP.val_main_cst_10_apply, ReadP.val_main_v53_apply,
    ReadP.val_main_v52_apply, ReadP.val_main_cst_9_apply, ReadP.val_main_v51_apply, ReadP.val_main_v50_apply,
    v49_at x hs W bias b ei hx hhs hW]
  exact Cert.LibLogisticSoftplus.logistic_eq _

/-- The reference's new hidden state is the specification's. -/
theorem hidden_eq (x hs : FVec Ideal S100000x128 .f32) (W : FVec Ideal S256x128 .f32) (bias : FVec Ideal S128 .f32)
    (b : FVec Ideal S100000x128 .f32) (ei : IVec S2x1600000 32)
    (hx : ∀ i, IsReal (x i)) (hhs : ∀ i, IsReal (hs i)) (hW : ∀ i, IsReal (W i)) :
    ReadP.val_main_v55 (F := Ideal) x hs W bias b ei = Cert.Gcn.hiddenArr x hs W bias b ei := by
  funext i
  obtain ⟨p, q, rfl⟩ : ∃ (p : Fin 100000) (q : Fin 128), i = ix2 p q := ⟨i 0, i 1, eq_ix2 i⟩
  rw [v55_at x hs W bias b ei hx hhs hW]
  rfl

/-- The reference's output is the specification's. -/
theorem out_eq (x hs : FVec Ideal S100000x128 .f32) (W : FVec Ideal S256x128 .f32) (bias : FVec Ideal S128 .f32)
    (b : FVec Ideal S100000x128 .f32) (V : FVec Ideal S128x128 .f32) (c : FVec Ideal S100000x128 .f32)
    (ei : IVec S2x1600000 32)
    (hx : ∀ i, IsReal (x i)) (hhs : ∀ i, IsReal (hs i)) (hW : ∀ i, IsReal (W i)) :
    ReadP.val_main_v57 (F := Ideal) x hs W bias b V c ei = Cert.Gcn.outArr x hs W bias b V c ei := by
  funext i
  obtain ⟨p, q, rfl⟩ : ∃ (p : Fin 100000) (q : Fin 128), i = ix2 p q := ⟨i 0, i 1, eq_ix2 i⟩
  have el : ∀ k : Fin 128, ReadP.lidx_main_v56 (ix2 p q) k = ix2 p k := fun k =>
    funext fun a => by match a with | ⟨0, _⟩ => rfl | ⟨1, _⟩ => rfl
  have er : ∀ k : Fin 128, ReadP.ridx_main_v56 (ix2 p q) k = ix2 k q := fun k =>
    funext fun a => by match a with | ⟨0, _⟩ => rfl | ⟨1, _⟩ => rfl
  rw [ReadP.val_main_v57_apply, ReadP.val_main_v56_apply]
  simp only [el, er, v55_at x hs W bias b ei hx hhs hW]
  rfl

end Cert.ReferenceIdeal.RefValue

end
-- ==== Proof.LibFinite.lean ====
/-
  GENERAL LEMMAS: a printed "is finite" test read back over the extended reals. At the ideal instance a float is an
  extended real, `|x|` is `max x (-x)`, a comparison is the linear order's, and the word 0x7F800000 denotes `+∞`. So the
  one-bit word of `|x| < +∞` being 1 says that `x` is a real number. Nothing here mentions a program.
-/
import Idealize.ShloMosaic.PureOps.Ideal

noncomputable section

namespace Cert.Lib.Finite

open Idealize.ShloMosaic

/-- The scalar shape has one index. -/
instance : Subsingleton (⟨0, ![]⟩ : Shape).Idx := ⟨fun a b => funext fun d => d.elim0⟩

/-- The word 0x7F800000 denotes `+∞`. -/
theorem ofBits_inf : Ideal.ofBits .f32 0x7F800000#32 = (⊤ : EReal) := by
  simp [Ideal.ofBits, Ideal.ieee]

/-- An extended real whose absolute value `max x (-x)` is below `+∞` is a real: `+∞` is its own absolute value, and
    `-∞`'s is `+∞` too. -/
theorem real_of_abs_lt_top (x : EReal) (h : max x (-x) < ⊤) : ∃ r : ℝ, x = (r : EReal) := by
  induction x using EReal.rec with
  | bot => simp at h
  | coe r => exact ⟨r, rfl⟩
  | top => simp at h

/-- The comparison `|x| < +∞` read back from its one-bit word: if it is 1, `x` is a real. -/
theorem real_of_cmp (x : EReal)
    (h : Ideal.cmp .olt (max x (-x)) (Ideal.ofBits .f32 0x7F800000#32) = 1#1) : ∃ r : ℝ, x = (r : EReal) := by
  refine real_of_abs_lt_top x ?_
  by_contra hn
  rw [ofBits_inf] at h
  simp [Ideal.cmp, hn] at h

end Cert.Lib.Finite

end
-- ==== Proof.LibAllFinite.lean ====
/-
  A printed "all entries finite" test read back over the extended reals.

  A program tests an array for finiteness by comparing the absolute value of every entry with `+∞` and folding the
  one-bit answers by `and` over all axes into one bit. At the ideal instance a float is an extended real, so if that
  bit is 1 every comparison is 1 and every entry is a real number. The array of `+∞` may be any array whose every
  entry is the word 0x7F800000 (a broadcast constant). Nothing here mentions a program.
-/
import proofs.«131673_j33354716021156_2_alg».proof.Proof.LibFinite
import Idealize.ShloMosaic.Lib.ReduceAll

noncomputable section

namespace Cert.Lib.AllFinite

open Idealize.ShloMosaic

/-- An array `A` of any shape is compared entry by entry, `|A i| < top i`, against an array `top` whose every entry is
    `+∞`, and the answers are folded by `and` over the reduced axes into a result of one index. If the fold is 1,
    every comparison is 1, so every entry of `A` is a real number. -/
theorem real_of_all_abs_lt_top {s t u : Shape} [Subsingleton t.Idx] {axes : List (Fin s.rank)}
    (A top : FVec Ideal s .f32) (htop : ∀ i, top i = Ideal.ofBits .f32 0x7F800000#32)
    (init : IVec u 1) (h : s.ReducesTo axes t) (hu : 0 < u.numel) (j : t.Idx)
    (e : Host.reduce IntOp.andi (cmpf .olt (Host.absf A) top) init h hu j = 1#1) :
    ∀ i, ∃ r : ℝ, A i = (r : EReal) := by
  intro i
  have hi : cmpf .olt (Host.absf A) top i = 1#1 := Host.reduce_andi_all _ init h hu j e i
  refine Cert.Lib.Finite.real_of_cmp (A i) ?_
  rw [← htop i]
  exact hi

end Cert.Lib.AllFinite

end
-- ==== Proof.FiniteArgs.lean ====
/-
  From the finiteness test of the arguments to the reality of every entry of the first three.

  The test compares, for each of the seven float arguments, the absolute value of every entry with +inf, folds the
  one-bit answers of each argument by "and" over all axes, and conjoins the seven folds by "and". If the result is 1,
  each fold is 1, so every comparison is 1, so every entry is a real number. Only the first three arguments (the node
  features, the hidden state and the weight matrix of the linear layer) are needed.
-/
import proofs.«131673_j33354716021156_2_alg».proof.Proof.Gen.Pre_finite_inputs
import proofs.«131673_j33354716021156_2_alg».proof.Proof.LibAllFinite
import proofs.«131673_j33354716021156_2_alg».proof.Proof.LibClampedDegree
import proofs.«131673_j33354716021156_2_alg».proof.Proof.LibRealClosed

noncomputable section

namespace Cert.FiniteArgs

open Idealize.ShloMosaic Cert.Pre_finite_inputs

/-- One argument's test: the fold by "and" of the comparisons |A i| < +inf, with +inf spread from a scalar constant,
    being 1 at the one index of the result makes every entry of A a real number. -/
theorem real_of_test {s : Shape} {axes : List (Fin s.rank)} (A : FVec Ideal s .f32)
    (hb : S_.BroadcastsInDim s ![]) (hr : s.ReducesTo axes S_) (hu : 0 < S_.numel) (j : S_.Idx)
    (e : Host.reduce IntOp.andi
          (cmpf .olt (Host.absf A) (broadcastInDim s ![] hb (constant (F := Ideal) S_ .f32 0x7F800000#32)))
          (constantI S_ 1 1#1) hr hu j = 1#1) :
    ∀ i, Cert.Lib.RealClosed.IsReal (A i) :=
  Cert.Lib.AllFinite.real_of_all_abs_lt_top A _ (fun i => Cert.LibClampedDegree.splat_apply hb _ i) _ hr hu j e

/-- If the test of the seven float arguments answers 1, every entry of the first three is a real number. -/
theorem real_args [Cert.Pre_finite_inputs.Facts] (a0 a1 : FVec Ideal Cert.Pre_finite_inputs.S100000x128 .f32)
    (a2 : FVec Ideal Cert.Pre_finite_inputs.S256x128 .f32) (a3 : FVec Ideal Cert.Pre_finite_inputs.S128 .f32)
    (a4 : FVec Ideal Cert.Pre_finite_inputs.S100000x128 .f32) (a5 : FVec Ideal Cert.Pre_finite_inputs.S128x128 .f32)
    (a6 : FVec Ideal Cert.Pre_finite_inputs.S100000x128 .f32) (a7 : IVec Cert.Pre_finite_inputs.S2x1600000 32)
    (h : Cert.Pre_finite_inputs.fn (F := Ideal) a0 a1 a2 a3 a4 a5 a6 a7 = fun _ => 1#1) :
    (∀ i, Cert.Lib.RealClosed.IsReal (a0 i)) ∧ (∀ i, Cert.Lib.RealClosed.IsReal (a1 i))
      ∧ (∀ i, Cert.Lib.RealClosed.IsReal (a2 i)) := by
  -- the result has one index; read the test there and expose the chain of operations
  have h0 := congrFun h (fun d => d.elim0)
  dsimp only [Cert.Pre_finite_inputs.fn, Cert.Pre_finite_inputs.fn_part1] at h0
  -- the conjunction of the seven folds, split from the outside in
  obtain ⟨h28, -⟩ := IntOp.andi_eq_one.1 h0
  obtain ⟨h23, -⟩ := IntOp.andi_eq_one.1 h28
  obtain ⟨h18, -⟩ := IntOp.andi_eq_one.1 h23
  obtain ⟨h13, -⟩ := IntOp.andi_eq_one.1 h18
  obtain ⟨h8, e2⟩ := IntOp.andi_eq_one.1 h13
  obtain ⟨e0, e1⟩ := IntOp.andi_eq_one.1 h8
  exact ⟨real_of_test a0 _ _ _ _ e0, real_of_test a1 _ _ _ _ e1, real_of_test a2 _ _ _ _ e2⟩

end Cert.FiniteArgs

end
-- ==== Proof.lean ====
/-
  One layer of a graph-convolutional recurrent cell, computed two ways.

  Over 100000 nodes and 1600000 directed edges, with every node given a loop to itself, the layer forms the linear map
  of each node's input and state, aggregates it over the node's in-neighbours under the symmetric normalisation
  1/sqrt(deg src) * 1/sqrt(deg dst), adds a bias and a state-independent term, applies the logistic function, and
  multiplies by an output matrix.

  The reference concatenates input and state, multiplies once by the weight matrix, appends the loops to the edge list,
  gathers both normalising factors per edge, scales each message by their product and scatter-adds.
  The kernel program multiplies input and state by the two halves of the weight matrix, scales each node's row by its own
  factor before the gather, scatter-adds over the true edges only, and applies the receiving node's factor — to the sum
  and to the node's own scaled row — afterwards, in two grids of 25 row blocks.

  On finite inputs every quantity in the aggregation is a real number (a degree is a positive count, so its factor is
  real), and on reals the receiving node's factor moves out of the sum: the two arrangements agree entry by entry.
  Everything else — the split of the product over the two halves of the weights, the order of the additions, the
  logistic function spelt by the exponential — agrees on all extended reals.

  Here the pieces are assembled: each program's run with its results named (the kernel's: KernelValue; the reference's:
  the run and its reading in RefValue), the inputs' finiteness (FiniteArgs), and the three frames.
-/
import proofs.«131673_j33354716021156_2_alg».proof.Defs
import proofs.«131673_j33354716021156_2_alg».proof.Proof.Gen.Kernel
import proofs.«131673_j33354716021156_2_alg».proof.Proof.Gen.Kernel.Frame
import proofs.«131673_j33354716021156_2_alg».proof.Proof.Gen.KernelIdeal
import proofs.«131673_j33354716021156_2_alg».proof.Proof.Gen.KernelIdeal.Frame
import proofs.«131673_j33354716021156_2_alg».proof.Proof.Gen.ReferenceIdeal
import proofs.«131673_j33354716021156_2_alg».proof.Proof.Gen.Pre_finite_inputs
import proofs.«131673_j33354716021156_2_alg».proof.Proof.KernelValue
import proofs.«131673_j33354716021156_2_alg».proof.Proof.RefValue
import proofs.«131673_j33354716021156_2_alg».proof.Proof.FiniteArgs
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run with the two results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories agreeing on the finite arguments both programs end with the specification's output and hidden state. -/
theorem algebraic : Cert.algebraic_KernelIdeal_ReferenceIdeal := by
  intro m ρ m' ρ' hpre hagree
  have hreal := fun c => Cert.FiniteArgs.real_args _ _ _ _ _ _ _ _ (hpre c)
  refine ⟨fun c => Cert.Gcn.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Gcn.hiddenArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)),
    Cert.KernelIdeal.KVal.run m ρ, ?_⟩
  refine (θ_run Cert.ReferenceIdeal.defs _ _).mono (fun r h c => ⟨?_, ?_, (h c).2.2⟩)
    (Cert.ReferenceIdeal.ValueP.run (F := Ideal) m' ρ')
  · rw [(h c).1, Cert.ReferenceIdeal.ReadP.val_main_v57_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact Cert.ReferenceIdeal.RefValue.out_eq _ _ _ _ _ _ _ _ (hreal c).1 (hreal c).2.1 (hreal c).2.2
  · rw [(h c).2.1, Cert.ReferenceIdeal.ReadP.val_main_v55_eq, (hagree c).1, (hagree c).2.1, (hagree c).2.2.1, (hagree c).2.2.2.1,
      (hagree c).2.2.2.2.1, (hagree c).2.2.2.2.2.2.2]
    exact Cert.ReferenceIdeal.RefValue.hidden_eq _ _ _ _ _ _ (hreal c).1 (hreal c).2.1 (hreal c).2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
